-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S2000x128 : Shape := ⟨2, ![2000, 128]⟩
abbrev S690000x128 : Shape := ⟨2, ![690000, 128]⟩
abbrev S1x128 : Shape := ⟨2, ![1, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S690000, .i32⟩
  | .hbm, ⟨31, _⟩ => ⟨S690000, .i1⟩
  | .hbm, ⟨32, _⟩ => ⟨S_, .i32⟩
  | .hbm, ⟨33, _⟩ => ⟨S690000, .i32⟩
  | .hbm, ⟨34, _⟩ => ⟨S690000, .i32⟩
  | .hbm, ⟨35, _⟩ => ⟨S690000, .i32⟩
  | .hbm, ⟨36, _⟩ => ⟨S690000x1, .i32⟩
  | .hbm, ⟨37, _⟩ => ⟨S690000, .f32⟩
  | .hbm, ⟨38, _⟩ => ⟨S_, .i32⟩
  | .hbm, ⟨39, _⟩ => ⟨S690000, .i32⟩
  | .hbm, ⟨40, _⟩ => ⟨S690000, .i1⟩
  | .hbm, ⟨41, _⟩ => ⟨S_, .i32⟩
  | .hbm, ⟨42, _⟩ => ⟨S690000, .i32⟩
  | .hbm, ⟨43, _⟩ => ⟨S690000, .i32⟩
  | .hbm, ⟨44, _⟩ => ⟨S690000, .i32⟩
  | .hbm, ⟨45, _⟩ => ⟨S690000x1, .i32⟩
  | .hbm, ⟨46, _⟩ => ⟨S690000, .f32⟩
  | .hbm, ⟨47, _⟩ => ⟨S690000, .f32⟩
  | .hbm, ⟨48, _⟩ => ⟨S50000x128, .f32⟩
  | .hbm, ⟨49, _⟩ => ⟨S_, .i32⟩
  | .hbm, ⟨50, _⟩ => ⟨S690000, .i32⟩
  | .hbm, ⟨51, _⟩ => ⟨S690000, .i1⟩
  | .hbm, ⟨52, _⟩ => ⟨S_, .i32⟩
  | .hbm, ⟨53, _⟩ => ⟨S690000, .i32⟩
  | .hbm, ⟨54, _⟩ => ⟨S690000, .i32⟩
  | .hbm, ⟨55, _⟩ => ⟨S690000, .i32⟩
  | .hbm, ⟨56, _⟩ => ⟨S690000x1, .i32⟩
  | .hbm, ⟨57, _⟩ => ⟨S690000x128, .f32⟩
  | .hbm, ⟨58, _⟩ => ⟨S690000x1, .f32⟩
  | .hbm, ⟨59, _⟩ => ⟨S690000x128, .f32⟩
  | .hbm, ⟨60, _⟩ => ⟨S690000x128, .f32⟩
  | .hbm, ⟨61, _⟩ => ⟨S_, .f32⟩
  | .hbm, ⟨62, _⟩ => ⟨S50000x128, .f32⟩
  | .hbm, ⟨63, _⟩ => ⟨S690000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S690000, .i32⟩
  | .hbm, ⟨70, _⟩ => ⟨S690000, .i1⟩
  | .hbm, ⟨71, _⟩ => ⟨S_, .i32⟩
  | .hbm, ⟨72, _⟩ => ⟨S690000, .i32⟩
  | .hbm, ⟨73, _⟩ => ⟨S690000, .i32⟩
  | .hbm, ⟨74, _⟩ => ⟨S690000, .i32⟩
  | .hbm, ⟨75, _⟩ => ⟨S690000x1, .i32⟩
  | .hbm, ⟨76, _⟩ => ⟨S690000x128, .f32⟩
  | .hbm, ⟨77, _⟩ => ⟨S690000x1, .f32⟩
  | .hbm, ⟨78, _⟩ => ⟨S690000x128, .f32⟩
  | .hbm, ⟨79, _⟩ => ⟨S690000x128, .f32⟩
  | .hbm, ⟨80, _⟩ => ⟨S_, .f32⟩
  | .hbm, ⟨81, _⟩ => ⟨S50000x128, .f32⟩
  | .hbm, ⟨82, _⟩ => ⟨S690000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S1x64, .f32⟩
  | .hbm, ⟨87, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S2000x128_S128x128_S2000x128_1_0_0_1_n_n_wf : DotDims.WF S2000x128 S128x128 S2000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S50000x128, .f32⟩
  | 16 => ⟨S_, .f32⟩
  | 17 => ⟨S690000, .f32⟩
  | 18 => ⟨S_, .f32⟩
  | 19 => ⟨S50000, .f32⟩
  | 20 => ⟨S690000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S690000, .i32⟩
  | 32 => ⟨S690000, .i1⟩
  | 33 => ⟨S_, .i32⟩
  | 34 => ⟨S690000, .i32⟩
  | 35 => ⟨S690000, .i32⟩
  | 36 => ⟨S690000, .i32⟩
  | 37 => ⟨S690000x1, .i32⟩
  | 38 => ⟨S690000, .f32⟩
  | 39 => ⟨S_, .i32⟩
  | 40 => ⟨S690000, .i32⟩
  | 41 => ⟨S690000, .i1⟩
  | 42 => ⟨S_, .i32⟩
  | 43 => ⟨S690000, .i32⟩
  | 44 => ⟨S690000, .i32⟩
  | 45 => ⟨S690000, .i32⟩
  | 46 => ⟨S690000x1, .i32⟩
  | 47 => ⟨S690000, .f32⟩
  | 48 => ⟨S690000, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x128, .f32⟩
  | 58 => ⟨S690000x1, .f32⟩
  | 59 => ⟨S690000x128, .f32⟩
  | 60 => ⟨S690000x128, .f32⟩
  | 61 => ⟨S_, .f32⟩
  | 62 => ⟨S50000x128, .f32⟩
  | 63 => ⟨S690000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .f32⟩
  | 73 => ⟨S690000, .f32⟩
  | 74 => ⟨S_, .f32⟩
  | 75 => ⟨S50000, .f32⟩
  | 76 => ⟨S690000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S690000, .i32⟩
  | 88 => ⟨S690000, .i1⟩
  | 89 => ⟨S_, .i32⟩
  | 90 => ⟨S690000, .i32⟩
  | 91 => ⟨S690000, .i32⟩
  | 92 => ⟨S690000, .i32⟩
  | 93 => ⟨S690000x1, .i32⟩
  | 94 => ⟨S690000, .f32⟩
  | 95 => ⟨S_, .i32⟩
  | 96 => ⟨S690000, .i32⟩
  | 97 => ⟨S690000, .i1⟩
  | 98 => ⟨S_, .i32⟩
  | 99 => ⟨S690000, .i32⟩
  | 100 => ⟨S690000, .i32⟩
  | 101 => ⟨S690000, .i32⟩
  | 102 => ⟨S690000x1, .i32⟩
  | 103 => ⟨S690000, .f32⟩
  | 104 => ⟨S690000, .f32⟩
  | 105 => ⟨S_, .i32⟩
  | 106 => ⟨S690000, .i32⟩
  | 107 => ⟨S690000, .i1⟩
  | 108 => ⟨S_, .i32⟩
  | 109 => ⟨S690000, .i32⟩
  | 110 => ⟨S690000, .i32⟩
  | 111 => ⟨S690000, .i32⟩
  | 112 => ⟨S690000x1, .i32⟩
  | 113 => ⟨S690000x128, .f32⟩
  | 114 => ⟨S690000x1, .f32⟩
  | 115 => ⟨S690000x128, .f32⟩
  | 116 => ⟨S690000x128, .f32⟩
  | 117 => ⟨S_, .f32⟩
  | 118 => ⟨S50000x128, .f32⟩
  | 119 => ⟨S690000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The kernel program's run with its RESULT named.

  The program is five kernel regions among stretches of host operations. The generated frame follows the buffers'
  contents from the launch memory through every segment: a host stretch rewrites the buffers its operations write, a
  region leaves each of its output arrays at what its grid points' write-backs leave and every other buffer as it found
  it. The last boundary's contents are `Gen.W11`. Every weakly fair execution ends, faulting nowhere, with every buffer
  that lives through the whole program — the result and the arguments among them — holding those contents. The
  generated frame states this only of the arguments; here the same launch is read at the result buffer too.
-/
import proofs.«148464_j13365938225232_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program ends with the result buffer at the last boundary's contents and
    the argument arrays as launched. -/
theorem run_result : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KRun

end
-- ==== Proof.KAgg.lean ====
/-
  The neighbourhood aggregation of the graph network, as the kernel program's host operations spell it.

  From the edge list e : [2, 640000] (row 0 the sources, row 1 the destinations) the program appends one self-loop per
  node: `rowVec e` and `colVec e` are the 690000 sources and destinations. The degree of a node is the number of edges
  that end at it (a scatter-add of ones); d = 1/sqrt(degree) where the degree is positive and 0 elsewhere; `normVec e`
  is d[source] · d[destination] per edge (an index below zero is first moved up by the number of nodes). The aggregation
  of an array lin : [50000, 128] gathers row source(j) of lin for every edge j, scales it by the edge's norm, and adds
  it into row destination(j) of a zero array.
-/
import proofs.«148464_j13365938225232_1_alg».proof.Proof.Gen.KernelIdeal
import Idealize.ShloMosaic.PureOps.Ideal

set_option maxRecDepth 8192

noncomputable section

namespace Cert.KernelIdeal.Agg

open Cert.KernelIdeal Cert.KernelIdeal.Gen Idealize.ShloMosaic

/-- The sources of the edges, the self-loops appended. -/
def rowVec (e : (⟨S2x640000, .i32⟩ : BufTy).Contents (Elt Ideal)) : (⟨S690000, .i32⟩ : BufTy).Contents (Elt Ideal) :=
  (concatenate S690000 0 [⟨S640000, (shapeCast _ (extractStridedSlice S1x640000 ![0, 0] e slices_S2x640000_S1x640000_0_0) shapeCasts_S1x640000_S640000)⟩, ⟨S50000, (iotaInDim S50000 32 0)⟩] concatenates_S640000_S50000_S690000_d0)

/-- The destinations of the edges, the self-loops appended. -/
def colVec (e : (⟨S2x640000, .i32⟩ : BufTy).Contents (Elt Ideal)) : (⟨S690000, .i32⟩ : BufTy).Contents (Elt Ideal) :=
  (concatenate S690000 0 [⟨S640000, (shapeCast _ (extractStridedSlice S1x640000 ![1, 0] e slices_S2x640000_S1x640000_1_0) shapeCasts_S1x640000_S640000)⟩, ⟨S50000, (iotaInDim S50000 32 0)⟩] concatenates_S640000_S50000_S690000_d0)

/-- The in-degree of every node: ones added at the edges' destinations. -/
def degVec (e : (⟨S2x640000, .i32⟩ : BufTy).Contents (Elt Ideal)) : FVec Ideal S50000 .f32 :=
  Host.scatterAdd scatter_S50000_S690000x1_S690000_n_0_0_1 (broadcastInDim S50000 ![] bcast_S_S50000 (constant S_ .f32 0x00000000#32)) (broadcastInDim S690000x1 ![0] bcast_S690000_S690000x1_0 (colVec e)) (broadcastInDim S690000 ![] bcast_S_S690000 (constant S_ .f32 0x3F800000#32))

/-- d = 1/sqrt(degree) where the degree is positive, 0 elsewhere. -/
def dinvVec (e : (⟨S2x640000, .i32⟩ : BufTy).Contents (Elt Ideal)) : FVec Ideal S50000 .f32 :=
  select (cmpf (F := Ideal) .ogt (degVec e) (broadcastInDim S50000 ![] bcast_S_S50000 (constant S_ .f32 0x00000000#32))) (Host.rsqrt (degVec e)) (broadcastInDim S50000 ![] bcast_S_S50000 (id (constant S_ .f32 0x00000000#32)))

/-- Per edge, d[source] · d[destination] (an index below zero first moved up by the number of nodes). -/
def normVec (e : (⟨S2x640000, .i32⟩ : BufTy).Contents (Elt Ideal)) : FVec Ideal S690000 .f32 :=
  mulf (Host.gather gather_S50000_S690000x1_S690000_n_0_n_n_0_1_1 (dinvVec e) (broadcastInDim S690000x1 ![0] bcast_S690000_S690000x1_0 (select (cmpi .slt (rowVec e) (broadcastInDim S690000 ![] bcast_S_S690000 (constantI S_ 32 0#32))) (addi (rowVec e) (broadcastInDim S690000 ![] bcast_S_S690000 (constantI S_ 32 50000#32))) (rowVec e)))) (Host.gather gather_S50000_S690000x1_S690000_n_0_n_n_0_1_1 (dinvVec e) (broadcastInDim S690000x1 ![0] bcast_S690000_S690000x1_0 (select (cmpi .slt (colVec e) (broadcastInDim S690000 ![] bcast_S_S690000 (constantI S_ 32 0#32))) (addi (colVec e) (broadcastInDim S690000 ![] bcast_S_S690000 (constantI S_ 32 50000#32))) (colVec e))))

/-- Rows of `lin` gathered by `rowV` (indices below zero moved up by 50000), scaled by `nrm` per edge, and added into
    the rows `colV` names of a zero array. -/
def aggOf (rowV colV : (⟨S690000, .i32⟩ : BufTy).Contents (Elt Ideal)) (nrm : FVec Ideal S690000 .f32)
    (lin : FVec Ideal S50000x128 .f32) : FVec Ideal S50000x128 .f32 :=
  Host.scatterAdd scatter_S50000x128_S690000x1_S690000x128_1_0_0_1 (broadcastInDim S50000x128 ![] bcast_S_S50000x128 (constant S_ .f32 0x00000000#32)) (broadcastInDim S690000x1 ![0] bcast_S690000_S690000x1_0 colV) (mulf (Host.gather gather_S50000x128_S690000x1_S690000x128_1_0_n_n_0_1_1128 lin (broadcastInDim S690000x1 ![0] bcast_S690000_S690000x1_0 (select (cmpi .slt rowV (broadcastInDim S690000 ![] bcast_S_S690000 (constantI S_ 32 0#32))) (addi rowV (broadcastInDim S690000 ![] bcast_S_S690000 (constantI S_ 32 50000#32))) rowV))) (broadcastInDim S690000x128 ![0, 1] bcast_S690000x1_S690000x128_0_1 (broadcastInDim S690000x1 ![0] bcast_S690000_S690000x1_0 nrm)))

/-- The aggregation over the edge list e. -/
def agg (e : (⟨S2x640000, .i32⟩ : BufTy).Contents (Elt Ideal)) (lin : FVec Ideal S50000x128 .f32) :
    FVec Ideal S50000x128 .f32 :=
  aggOf (rowVec e) (colVec e) (normVec e) lin

end Cert.KernelIdeal.Agg

end
-- ==== Proof.Spec.lean ====
/-
  A two-layer graph network followed by an affine output map, as ONE function of the argument arrays, entry by entry,
  over the extended reals.

  For node features x : [R, 128], weights w1, w2 : [128, 128] and wl : [128, 64], biases b1, b2 : [128] and bl : [64],
  and ANY map A of [R, 128] arrays to [R, 128] arrays (the neighbourhood aggregation: rows gathered by source node,
  scaled, and summed by destination node — what it is plays no part here), the network is

      out = dense (biasFloor (A (dense (biasFloor (A (dense x w1)) b1) w2)) b2) wl  +  bl   (bl added along rows)

  where  dense y w (p, q) = Σ_k y[p, k] · w[k, q],   biasFloor a b (p, q) = max (a[p, q] + b[q]) 0,
  and    biasAdd a b (p, q) = a[p, q] + b[q].
  Two programs that compute the three dense maps, the two floors and the final bias entry by entry as above, and that
  apply one and the same A between them, compute the same array: no law of arithmetic is needed, so none that
  could fail at an infinity.
-/
import Idealize.ShloMosaic.Lib.ValueIdx
import Idealize.ShloMosaic.PureOps.Ideal

noncomputable section

open scoped BigOperators

namespace Cert.GraphNet

open Idealize.ShloMosaic Idealize.ShloMosaic.ValueIdx

variable {R N : Nat}

/-- Entry (p, q) of the product of y : [R, 128] with w : [128, N]: the sum over k of y[p, k] · w[k, q]. -/
def denseE (y : FVec Ideal ⟨2, ![R, 128]⟩ .f32) (w : FVec Ideal ⟨2, ![128, N]⟩ .f32) (p : Fin R) (q : Fin N) : Ideal .f32 :=
  ∑ k : Fin 128, y (ix2 p k) * w (ix2 k q)

/-- The product of y : [R, 128] with w : [128, N], as an array. -/
def dense (y : FVec Ideal ⟨2, ![R, 128]⟩ .f32) (w : FVec Ideal ⟨2, ![128, N]⟩ .f32) : FVec Ideal ⟨2, ![R, N]⟩ .f32 :=
  fun i => denseE y w (i 0) (i 1)

theorem dense_apply (y : FVec Ideal ⟨2, ![R, 128]⟩ .f32) (w : FVec Ideal ⟨2, ![128, N]⟩ .f32) (p : Fin R) (q : Fin N) :
    dense y w (ix2 p q) = ∑ k : Fin 128, y (ix2 p k) * w (ix2 k q) := rfl

/-- Entry (p, q) of a + b along rows, floored at zero: max (a[p, q] + b[q]) 0. -/
def biasFloor (a : FVec Ideal ⟨2, ![R, N]⟩ .f32) (b : FVec Ideal ⟨1, ![N]⟩ .f32) : FVec Ideal ⟨2, ![R, N]⟩ .f32 :=
  fun i => max (a i + b (ix1 (i 1))) (Ideal.ofBits .f32 0x00000000#32)

theorem biasFloor_apply (a : FVec Ideal ⟨2, ![R, N]⟩ .f32) (b : FVec Ideal ⟨1, ![N]⟩ .f32) (p : Fin R) (q : Fin N) :
    biasFloor a b (ix2 p q) = max (a (ix2 p q) + b (ix1 q)) (Ideal.ofBits .f32 0x00000000#32) := rfl

/-- Entry (p, q) of a + b along rows: a[p, q] + b[q]. -/
def biasAdd (a : FVec Ideal ⟨2, ![R, N]⟩ .f32) (b : FVec Ideal ⟨1, ![N]⟩ .f32) : FVec Ideal ⟨2, ![R, N]⟩ .f32 :=
  fun i => a i + b (ix1 (i 1))

theorem biasAdd_apply (a : FVec Ideal ⟨2, ![R, N]⟩ .f32) (b : FVec Ideal ⟨1, ![N]⟩ .f32) (p : Fin R) (q : Fin N) :
    biasAdd a b (ix2 p q) = a (ix2 p q) + b (ix1 q) := rfl

/-- The whole network over an aggregation map A. -/
def net (A : FVec Ideal ⟨2, ![R, 128]⟩ .f32 → FVec Ideal ⟨2, ![R, 128]⟩ .f32)
    (x : FVec Ideal ⟨2, ![R, 128]⟩ .f32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32)
    (wl : FVec Ideal ⟨2, ![128, 64]⟩ .f32) (bl : FVec Ideal ⟨1, ![64]⟩ .f32) : FVec Ideal ⟨2, ![R, 64]⟩ .f32 :=
  biasAdd (dense (biasFloor (A (dense (biasFloor (A (dense x w1)) b1) w2)) b2) wl) bl

end Cert.GraphNet

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibRowOps.lean ====
/-
  A block of rows through the operations of a dense layer, read at an entry over the extended reals.

  For a block x of B rows and K lanes, a weight w of K rows and N lanes, and a bias b of N entries:
    * entry (r, k) of a kernel's product x · w accumulated into the zero splat, and of the host's product, is
      Σ_j x[r, j] · w[j, k]                                                         (matmul_entry, dot_entry);
    * the bias recast as a row and broadcast down the rows (the kernel's form), or broadcast to a row and then down the
      rows (the host's form), reads b[k] at (r, k)                                   (bias_rows, bias_rows_host);
    * a scalar constant broadcast to any shape reads the constant                    (scalar_bcast_host);
    * the logistic function, and the host's spelling of y · σ(y) and of σ(y) through negate, exponential, add and divide,
      read entry by entry                                                           (logistic_apply, host_silu_apply, host_sigmoid_apply);
    * the kernel's lane sum of a block, recast as a column, reads Σ_k v[r, k] at (r, 0)   (lane_sum_col);
    * a one-entry vector recast [1, 1] and broadcast to a column reads its entry      (unit_col).
  Each reading re-indexes; none needs finiteness.
-/
import Mathlib
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«148464_j13365938225232_1_alg».proof.Proof.LibDotRows
import proofs.«148464_j13365938225232_1_alg».proof.Proof.LibColBroadcast
import proofs.«148464_j13365938225232_1_alg».proof.Proof.LibRowReduce

noncomputable section

open scoped BigOperators

namespace Cert.LibRowOps

open Idealize.ShloMosaic Idealize.ShloMosaic.ValueIdx

variable {α : Type} {B K N C : Nat} {φ₁ φ₂ : FTy}

/-- The logistic function of an array reads, at an index, the logistic function of the entry. -/
theorem logistic_apply {s : Shape} {φ : FTy} (v : FVec Ideal s φ) (i : s.Idx) : logistic v i = Ideal.logistic (v i) := rfl

/-- The host's spelling of y · 1 / (1 + e^(-y)) on an array, with the two ones given as arrays that read 1, reads at an
    index y · σ(y) of the entry. -/
theorem host_silu_apply {s : Shape} (y one one' : FVec Ideal s .f32) (i : s.Idx) (h1 : one i = 1) (h1' : one' i = 1) :
    mulf y (Host.divf one' (addf one (Host.exp (Host.negf y)))) i = y i * Ideal.logistic (y i) := by
  show y i * Ideal.div (one' i) (one i + Ideal.exp (-(y i))) = y i * Ideal.div 1 (1 + Ideal.exp (-(y i)))
  rw [h1, h1']

/-- The host's spelling of 1 / (1 + e^(-y)) on an array reads at an index σ of the entry. -/
theorem host_sigmoid_apply {s : Shape} (y one one' : FVec Ideal s .f32) (i : s.Idx) (h1 : one i = 1) (h1' : one' i = 1) :
    Host.divf one' (addf one (Host.exp (Host.negf y))) i = Ideal.logistic (y i) := by
  show Ideal.div (one' i) (one i + Ideal.exp (-(y i))) = Ideal.div 1 (1 + Ideal.exp (-(y i)))
  rw [h1, h1']

/-- Entry (r, k) of a kernel's product into the zero splat, for any record of the plain dimension numbers. -/
theorem matmul_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    matmul (F := Ideal) d none x w (constant ⟨2, ![B, N]⟩ .f32 0x00000000#32) (ix2 r k)
      = ∑ j : Fin K, x (ix2 r j) * w (ix2 j k) := by
  subst hd
  exact Cert.Lib.DotRows.matmul_plain_apply x w r k

/-- Entry (r, k) of the host's product, for any record of the plain dimension numbers. -/
theorem dot_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    Host.dotGeneral (F := Ideal) d none x w (ix2 r k) = ∑ j : Fin K, x (ix2 r j) * w (ix2 j k) := by
  subst hd
  exact Cert.Lib.DotRows.dotGeneral_plain_apply x w r k

/-- A bias vector recast as a row and broadcast down B rows reads its entry k at (r, k). -/
theorem bias_rows (v : (⟨1, ![C]⟩ : Shape).Idx → α) (hc : (⟨1, ![C]⟩ : Shape).ShapeCasts ⟨2, ![1, C]⟩)
    (hb : (⟨2, ![1, C]⟩ : Shape).Broadcasts ⟨2, ![B, C]⟩) (r : Fin B) (k : Fin C) :
    broadcastTo ⟨2, ![B, C]⟩ (shapeCast ⟨2, ![1, C]⟩ v hc) hb (ix2 r k) = v (ix1 k) :=
  (broadcastTo_1b_ab_apply _ hb r k).trans (shapeCast_a_1a_apply v hc 0 k)

/-- A bias vector broadcast to a row and then down B rows (the host's two broadcasts) reads its entry k at (r, k). -/
theorem bias_rows_host (v : (⟨1, ![C]⟩ : Shape).Idx → α)
    (h0 : (⟨1, ![C]⟩ : Shape).BroadcastsInDim ⟨2, ![1, C]⟩ (![1] : Fin 1 → Fin 2))
    (h1 : (⟨2, ![1, C]⟩ : Shape).BroadcastsInDim ⟨2, ![B, C]⟩ (![0, 1] : Fin 2 → Fin 2)) (r : Fin B) (k : Fin C) :
    broadcastInDim ⟨2, ![B, C]⟩ ![0, 1] h1 (broadcastInDim ⟨2, ![1, C]⟩ ![1] h0 v) (ix2 r k) = v (ix1 k) := by
  have e1 : broadcastInDim ⟨2, ![B, C]⟩ ![0, 1] h1 (broadcastInDim ⟨2, ![1, C]⟩ ![1] h0 v) (ix2 r k)
      = broadcastInDim ⟨2, ![1, C]⟩ ![1] h0 v (ix2 (0 : Fin 1) k) :=
    broadcastInDim_apply _ h1 _ (ix2 r k) (ix2 (0 : Fin 1) k) fun a => by
      match a with
      | ⟨0, _⟩ => rfl
      | ⟨1, _⟩ =>
        show k.val = if C = 1 then 0 else k.val
        split
        · have := k.isLt; omega
        · rfl
  have e2 : broadcastInDim ⟨2, ![1, C]⟩ ![1] h0 v (ix2 (0 : Fin 1) k) = v (ix1 k) :=
    broadcastInDim_apply _ h0 v (ix2 (0 : Fin 1) k) (ix1 k) fun a => by
      match a with
      | ⟨0, _⟩ =>
        show k.val = if C = 1 then 0 else k.val
        split
        · have := k.isLt; omega
        · rfl
  exact e1.trans e2

/-- A scalar broadcast to any shape (the host's form) reads the scalar. -/
theorem scalar_bcast_host {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 fun a => a.elim0

/-- The kernel's lane sum of a block, recast as a column, reads the row's sum at (r, 0). -/
theorem lane_sum_col (v : FVec Ideal ⟨2, ![B, C]⟩ .f32)
    (h : (⟨2, ![B, C]⟩ : Shape).Reduces [1] (⟨1, ![B]⟩ : Shape)) (hφ : FKind.Formats .f32)
    (hacc : (0x00000000#32 : BitVec 32) = FKind.add.neutral .f32 hφ)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  (Cert.LibRowReduce.shapeCast_col_apply _ hc r).trans (Cert.LibRowReduce.multiReduction_add_row v h hφ hacc r)

/-- The same with the accumulator's neutrality stated on the words themselves (zero is zero), whatever proof of the
    format's admissibility the reduction carries. -/
theorem lane_sum_col_zero (v : FVec Ideal ⟨2, ![B, C]⟩ .f32)
    (h : (⟨2, ![B, C]⟩ : Shape).Reduces [1] (⟨1, ![B]⟩ : Shape)) (hφ : FKind.Formats .f32)
    (hacc : (0x00000000#32 : BitVec 32) = 0x00000000#32)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  lane_sum_col v h hφ hacc hc r

/-- A one-entry vector recast [1, 1] and broadcast to a column of B rows reads its entry at (r, 0). -/
theorem unit_col (v : (⟨1, ![1]⟩ : Shape).Idx → α) (hc : (⟨1, ![1]⟩ : Shape).ShapeCasts ⟨2, ![1, 1]⟩)
    (hb : (⟨2, ![1, 1]⟩ : Shape).Broadcasts ⟨2, ![B, 1]⟩) (r : Fin B) :
    broadcastTo ⟨2, ![B, 1]⟩ (shapeCast ⟨2, ![1, 1]⟩ v hc) hb (ix2 r (0 : Fin 1)) = v (ix1 (0 : Fin 1)) :=
  (broadcastTo_1b_ab_apply _ hb r (0 : Fin 1)).trans (shapeCast_a_1a_apply v hc 0 0)

/-- A one-entry vector broadcast to [1, 1] and then to a column of B rows (the host's form) reads its entry. -/
theorem unit_col_host (v : (⟨1, ![1]⟩ : Shape).Idx → α)
    (h0 : (⟨1, ![1]⟩ : Shape).BroadcastsInDim ⟨2, ![1, 1]⟩ (![1] : Fin 1 → Fin 2))
    (h1 : (⟨2, ![1, 1]⟩ : Shape).BroadcastsInDim ⟨2, ![B, 1]⟩ (![0, 1] : Fin 2 → Fin 2)) (r : Fin B) :
    broadcastInDim ⟨2, ![B, 1]⟩ ![0, 1] h1 (broadcastInDim ⟨2, ![1, 1]⟩ ![1] h0 v) (ix2 r (0 : Fin 1)) = v (ix1 (0 : Fin 1)) :=
  bias_rows_host v h0 h1 r 0

/-- A column broadcast across C lanes (the host's form) reads the column's entry of the row. -/
theorem col_bcast_host (v : (⟨2, ![B, 1]⟩ : Shape).Idx → α)
    (h : (⟨2, ![B, 1]⟩ : Shape).BroadcastsInDim ⟨2, ![B, C]⟩ (![0, 1] : Fin 2 → Fin 2)) (r : Fin B) (k : Fin C) :
    broadcastInDim ⟨2, ![B, C]⟩ ![0, 1] h v (ix2 r k) = v (ix2 r (0 : Fin 1)) :=
  broadcastInDim_apply _ h v (ix2 r k) (ix2 r (0 : Fin 1)) fun a => by
    match a with
    | ⟨0, _⟩ =>
      show r.val = if B = 1 then 0 else r.val
      split
      · have := r.isLt; omega
      · rfl
    | ⟨1, _⟩ => rfl

end Cert.LibRowOps

end
-- ==== Proof.Region0.lean ====
/-
  The first product region: what its output array holds when the region is left.

  The region walks 25 grid points. Point t stages rows 2000·t … 2000·t + 1999 of the left array [50000, 128] and the whole
  right array [128, 128], multiplies them into a zero accumulator, and writes the block back to rows 2000·t … of the
  output. Entry (p, q) of the block's product is Σ_k x[2000·t + p, k] · w[k, q], which is entry (2000·t + p, q) of the
  product of the whole arrays; the 25 blocks tile the output, so the output array ends as that product — whatever the
  region found in its buffers (`V`), as a function of the two arrays it read.
-/
import proofs.«148464_j13365938225232_1_alg».proof.Proof.Gen.KernelIdeal.Frame
import proofs.«148464_j13365938225232_1_alg».proof.Proof.Spec
import proofs.«148464_j13365938225232_1_alg».proof.Proof.LibRowOps
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a whole rectangle. -/
theorem origin : (![0, 0] : Fin 2 → Nat) = fun _ => 0 := funext fun a => by fin_cases a <;> rfl

/-- Entry (p, q) of the staged block's product is entry (r, q) of the whole arrays' product, when the staged rows are
    rows of X (row p of the block being row r of X) and the staged right operand is W. -/
theorem block_entry (X : FVec Ideal S50000x128 .f32) (W : FVec Ideal S128x128 .f32)
    (x0 : Vec Ideal S2000x128 .f32) (x1 : Vec Ideal S128x128 .f32) (p : Fin 2000) (q : Fin 128) (r : Fin 50000)
    (hx0 : ∀ k : Fin 128, x0 (ix2 p k) = X (ix2 r k)) (hx1 : ∀ k : Fin 128, x1 (ix2 k q) = W (ix2 k q)) :
    k0_pay1 (F := Ideal) x0 x1 (ix2 p q) = dense X W (ix2 r q) := by
  unfold k0_pay1
  refine (Cert.LibRowOps.matmul_entry dot_S2000x128_S128x128_S2000x128_1_0_0_1_n_n rfl _ _ p q).trans ?_
  rw [dense_apply]
  exact Finset.sum_congr rfl fun k _ => by
    show x0 (ix2 p k) * x1 (ix2 k q) = _
    rw [hx0 k, hx1 k]

/-- Where each window's block sits at grid point t: the left operand's and the output's blocks at block row t, the
    right operand's at the origin (decided over the 25 points). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole arrays' product. -/
theorem flushed_eq (c : Dev nD) (t : Fin cfg0.N) :
    (dat0 V c).flushed 2 t
      = ((cfg0.win 2).blk t).view.read (Elt Ideal) (dense (R := 50000) (N := 128) (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e00, e01, e10, e11, e20, e21⟩ := index_facts t
  have hN : cfg0.N = 25 := N_0
  have ht : t.val < 25 := by have := t.isLt; omega
  funext j
  obtain ⟨p, q, rfl⟩ : ∃ (p : Fin 2000) (q : Fin 128), j = ix2 p q := ⟨j 0, j 1, eq_ix2 j⟩
  have hr : t.val * 2000 + p.val < 50000 := by have := p.isLt; omega
  have hI : ((cfg0.win 2).blk t).view.emb (ix2 p q) = ix2 (⟨t.val * 2000 + p.val, hr⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (iblk0 V c 0 t) (iblk0 V c 1 t) (ix2 p q)
      = dense (R := 50000) (N := 128) (V c main_arg0) (V c main_arg2) (((cfg0.win 2).blk t).view.emb (ix2 p q))
  refine (block_entry (V c main_arg0) (V c main_arg2) (iblk0 V c 0 t) (iblk0 V c 1 t) p q ⟨t.val * 2000 + p.val, hr⟩
    (fun k => ?_) (fun k => ?_)).trans (congrArg (dense (R := 50000) (N := 128) (V c main_arg0) (V c main_arg2)) hI.symm)
  · show V c main_arg0 (((cfg0.win 0).blk t).view.emb (ix2 p k)) = V c main_arg0 (ix2 (⟨t.val * 2000 + p.val, hr⟩ : Fin 50000) k)
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the output array lies in point t's block iff each coordinate lies in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every entry of the output array is written: row r by grid point r / 2000. -/
theorem cover (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have hN : grid0.N = 25 := N_0
  have hlt : (i 0).val / 2000 < cfg0.N := by show (i 0).val / 2000 < grid0.N; omega
  obtain ⟨e00, e01, e10, e11, e20, e21⟩ := index_facts ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    have e : win0_2.index ⟨(i 0).val / 2000, hlt⟩ (0 : Fin 2) = (i 0).val / 2000 := e20
    omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    omega

/-- THE OUTPUT ARRAY when the region is left: the product of the two arrays the region read. -/
theorem final (c : Dev nD) :
    (dat0 V c).arrAt 2 cfg0.N = dense (R := 50000) (N := 128) (V c main_arg0) (V c main_arg2) :=
  (dat0 V c).arrAt_eq_of_cover 2 _ (fun t _ => flushed_eq V c t) cover

end Cert.KernelIdeal.Region0

end
-- ==== Proof.RowBias.lean ====
/-
  A bias handed over as a one-row matrix.

  The kernel program recasts each bias vector b : [N] as a matrix [1, N] before the region that adds it; the region then
  reads row 0 of that matrix. Adding row 0 of the recast matrix along the rows of a : [R, N] is adding b along rows:
  entry (p, q) is a[p, q] + b[q] either way (and the same under a floor at zero).
-/
import proofs.«148464_j13365938225232_1_alg».proof.Proof.Spec
import Idealize.ShloMosaic.Lib.ValueLayout
import Idealize.ShloMosaic.Lib.Pipeline.Value

noncomputable section

namespace Cert.GraphNet

open Idealize.ShloMosaic Idealize.ShloMosaic.ValueIdx

variable {R N : Nat}

/-- Entry (p, q) of a plus row 0 of the one-row matrix b, floored at zero. -/
def biasFloorRow (a : FVec Ideal ⟨2, ![R, N]⟩ .f32) (b : FVec Ideal ⟨2, ![1, N]⟩ .f32) : FVec Ideal ⟨2, ![R, N]⟩ .f32 :=
  fun i => max (a i + b (ix2 (0 : Fin 1) (i 1))) (Ideal.ofBits .f32 0x00000000#32)

theorem biasFloorRow_apply (a : FVec Ideal ⟨2, ![R, N]⟩ .f32) (b : FVec Ideal ⟨2, ![1, N]⟩ .f32) (p : Fin R) (q : Fin N) :
    biasFloorRow a b (ix2 p q) = max (a (ix2 p q) + b (ix2 (0 : Fin 1) q)) (Ideal.ofBits .f32 0x00000000#32) := rfl

/-- Entry (p, q) of a plus row 0 of the one-row matrix b. -/
def biasAddRow (a : FVec Ideal ⟨2, ![R, N]⟩ .f32) (b : FVec Ideal ⟨2, ![1, N]⟩ .f32) : FVec Ideal ⟨2, ![R, N]⟩ .f32 :=
  fun i => a i + b (ix2 (0 : Fin 1) (i 1))

theorem biasAddRow_apply (a : FVec Ideal ⟨2, ![R, N]⟩ .f32) (b : FVec Ideal ⟨2, ![1, N]⟩ .f32) (p : Fin R) (q : Fin N) :
    biasAddRow a b (ix2 p q) = a (ix2 p q) + b (ix2 (0 : Fin 1) q) := rfl

/-- With the one-row matrix a recast vector, the floored sum is the floored sum with the vector. -/
theorem biasFloorRow_cast (a : FVec Ideal ⟨2, ![R, N]⟩ .f32) (b : FVec Ideal ⟨1, ![N]⟩ .f32)
    (h : (⟨1, ![N]⟩ : Shape).ShapeCasts ⟨2, ![1, N]⟩) :
    biasFloorRow a (shapeCast ⟨2, ![1, N]⟩ b h) = biasFloor a b := by
  funext i
  obtain ⟨p, q, rfl⟩ : ∃ (p : Fin R) (q : Fin N), i = ix2 p q := ⟨i 0, i 1, eq_ix2 i⟩
  rw [biasFloorRow_apply, biasFloor_apply, shapeCast_a_1a_apply]

/-- With the one-row matrix a recast vector, the sum is the sum with the vector. -/
theorem biasAddRow_cast (a : FVec Ideal ⟨2, ![R, N]⟩ .f32) (b : FVec Ideal ⟨1, ![N]⟩ .f32)
    (h : (⟨1, ![N]⟩ : Shape).ShapeCasts ⟨2, ![1, N]⟩) :
    biasAddRow a (shapeCast ⟨2, ![1, N]⟩ b h) = biasAdd a b := by
  funext i
  obtain ⟨p, q, rfl⟩ : ∃ (p : Fin R) (q : Fin N), i = ix2 p q := ⟨i 0, i 1, eq_ix2 i⟩
  rw [biasAddRow_apply, biasAdd_apply, shapeCast_a_1a_apply]

end Cert.GraphNet

end
-- ==== Proof.Region1.lean ====
/-
  The first bias-and-floor region: what its output array holds when the region is left.

  The region walks 25 grid points. Point t stages rows 2000·t … 2000·t + 1999 of the array a : [50000, 128] and the whole
  one-row matrix b : [1, 128], adds b's row to every staged row, floors the sum at zero, and writes the block back to
  rows 2000·t … of the output. Entry (p, q) of the block is max (a[2000·t + p, q] + b[0, q]) 0; the 25 blocks tile the
  output, so the output array ends as that function of the two arrays the region read, whatever it found in its buffers.
-/
import proofs.«148464_j13365938225232_1_alg».proof.Proof.Gen.KernelIdeal.Frame
import proofs.«148464_j13365938225232_1_alg».proof.Proof.Spec
import proofs.«148464_j13365938225232_1_alg».proof.Proof.LibRowOps
import Idealize.ShloMosaic.Lib.Pipeline.Value
import Idealize.ShloMosaic.Lib.ValueIdx
import Idealize.ShloMosaic.Lib.ValueLayout
import proofs.«148464_j13365938225232_1_alg».proof.Proof.RowBias
set_option maxRecDepth 16384

noncomputable section

open scoped BigOperators

namespace Cert.KernelIdeal.Region1

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a whole rectangle. -/
theorem origin : (![0, 0] : Fin 2 → Nat) = fun _ => 0 := funext fun a => by fin_cases a <;> rfl

/-- Entry (p, q) of the staged block's result is entry (r, q) of the whole arrays' result, when row p of the staged block
    is row r of A and the staged one-row matrix is B. -/
theorem block_entry (A : FVec Ideal S50000x128 .f32) (B : FVec Ideal S1x128 .f32)
    (x0 : Vec Ideal S2000x128 .f32) (x1 : Vec Ideal S1x128 .f32) (p : Fin 2000) (q : Fin 128) (r : Fin 50000)
    (hx0 : x0 (ix2 p q) = A (ix2 r q)) (hx1 : x1 (ix2 (0 : Fin 1) q) = B (ix2 (0 : Fin 1) q)) :
    k1_pay1 (F := Ideal) x0 x1 (ix2 p q) = biasFloorRow A B (ix2 r q) := by
  unfold k1_pay1
  show maximumf (F := Ideal) (addf (F := Ideal) (shapeCast S2000x128 x0 shapeCasts_S2000x128_S2000x128)
      (broadcastTo S2000x128 (shapeCast S1x128 x1 shapeCasts_S1x128_S1x128) broadcasts_S1x128_S2000x128))
      (broadcast S2000x128 (Scalar.ofBits (F := Ideal) .f32 0x00000000#32)) (ix2 p q) = _
  rw [shapeCast_self, shapeCast_self, biasFloorRow_apply]
  show max (x0 (ix2 p q) + broadcastTo S2000x128 x1 broadcasts_S1x128_S2000x128 (ix2 p q)) _ = _
  rw [broadcastTo_1b_ab_apply, hx0, hx1]
  rfl

/-- Where each window's block sits at grid point t: the input's and the output's blocks at block row t, the one-row
    matrix at the origin (decided over the 25 points). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole arrays' result. -/
theorem flushed_eq (c : Dev nD) (t : Fin cfg1.N) :
    (dat1 V c).flushed 2 t
      = ((cfg1.win 2).blk t).view.read (Elt Ideal) (biasFloorRow (R := 50000) (N := 128) (V c main_v43) (V c main_v44)) := by
  show (cfg1.win 2).cut (grid1.coords t) ((dat1 V c).after 2 t) = _
  rw [after1_2]
  unfold out1_2
  rw [View.canon_unit_zero origin]
  simp only [View.ld_unit_zero (S := S2000x128) origin, View.ld_unit_zero (S := S1x128) origin]
  obtain ⟨e00, e01, e10, e11, e20, e21⟩ := index_facts t
  have hN : cfg1.N = 25 := N_1
  have ht : t.val < 25 := by have := t.isLt; omega
  funext j
  obtain ⟨p, q, rfl⟩ : ∃ (p : Fin 2000) (q : Fin 128), j = ix2 p q := ⟨j 0, j 1, eq_ix2 j⟩
  have hr : t.val * 2000 + p.val < 50000 := by have := p.isLt; omega
  have hI : ((cfg1.win 2).blk t).view.emb (ix2 p q) = ix2 (⟨t.val * 2000 + p.val, hr⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * q.val = q.val; omega
  show k1_pay1 (iblk1 V c 0 t) (iblk1 V c 1 t) (ix2 p q)
      = biasFloorRow (R := 50000) (N := 128) (V c main_v43) (V c main_v44) (((cfg1.win 2).blk t).view.emb (ix2 p q))
  refine (block_entry (V c main_v43) (V c main_v44) (iblk1 V c 0 t) (iblk1 V c 1 t) p q ⟨t.val * 2000 + p.val, hr⟩
    ?_ ?_).trans (congrArg (biasFloorRow (R := 50000) (N := 128) (V c main_v43) (V c main_v44)) hI.symm)
  · show V c main_v43 (((cfg1.win 0).blk t).view.emb (ix2 p q)) = V c main_v43 (ix2 (⟨t.val * 2000 + p.val, hr⟩ : Fin 50000) q)
    refine congrArg (V c main_v43) ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * q.val = q.val; omega
  · show V c main_v44 (((cfg1.win 1).blk t).view.emb (ix2 (0 : Fin 1) q)) = V c main_v44 (ix2 (0 : Fin 1) q)
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega

/-- An index of the output array lies in point t's block iff each coordinate lies in the block's range on its axis. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v45).slice (win1_2.rect t)).set ↔ _
  rw [View.set_slice_whole, Rect.mem_set_unit]
  exact Iff.rfl

/-- Every entry of the output array is written: row r by grid point r / 2000. -/
theorem cover (i : S50000x128.Idx) :
    ∃ t : Fin cfg1.N, (cfg1.win 2).flush t = true ∧ i ∈ ((cfg1.win 2).blk t).view.set := by
  have h0 : (i 0).val < 50000 := (i 0).isLt
  have h1 : (i 1).val < 128 := (i 1).isLt
  have hN : grid1.N = 25 := N_1
  have hlt : (i 0).val / 2000 < cfg1.N := by show (i 0).val / 2000 < grid1.N; omega
  obtain ⟨e00, e01, e10, e11, e20, e21⟩ := index_facts ⟨(i 0).val / 2000, hlt⟩
  refine ⟨⟨(i 0).val / 2000, hlt⟩, flush1_2 _, ?_⟩
  rw [mem_block]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    have e : win1_2.index ⟨(i 0).val / 2000, hlt⟩ (0 : Fin 2) = (i 0).val / 2000 := e20
    omega
  | ⟨1, _⟩ =>
    show win1_2.index ⟨(i 0).val / 2000, hlt⟩ (1 : Fin 2) * 128 ≤ (i 1).val
      ∧ (i 1).val < win1_2.index ⟨(i 0).val / 2000, hlt⟩ (1 : Fin 2) * 128 + 128
    omega

/-- THE OUTPUT ARRAY when the region is left: the floored sum of the two arrays the region read. -/
theorem final (c : Dev nD) :
    (dat1 V c).arrAt 2 cfg1.N = biasFloorRow (R := 50000) (N := 128) (V c main_v43) (V c main_v44) :=
  (dat1 V c).arrAt_eq_of_cover 2 _ (fun t _ => flushed_eq V c t) cover

end Cert.KernelIdeal.Region1

end
-- ==== Proof.Region2.lean ====
/-
  The second product region: what its output array holds when the region is left.

  The region walks 25 grid points. Point t stages rows 2000·t … 2000·t + 1999 of the left array [50000, 128] and the whole
  right array [128, 128], multiplies them into a zero accumulator, and writes the block back to rows 2000·t … of the
  output. Entry (p, q) of the block's product is Σ_k x[2000·t + p, k] · w[k, q], which is entry (2000·t + p, q) of the
  product of the whole arrays; the 25 blocks tile the output, so the output array ends as that product — whatever the
  region found in its buffers (`V`), as a function of the two arrays it read.
-/
import proofs.«148464_j13365938225232_1_alg».proof.Proof.Gen.KernelIdeal.Frame
import proofs.«148464_j13365938225232_1_alg».proof.Proof.Spec
import proofs.«148464_j13365938225232_1_alg».proof.Proof.LibRowOps
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a whole rectangle. -/
theorem origin : (![0, 0] : Fin 2 → Nat) = fun _ => 0 := funext fun a => by fin_cases a <;> rfl

/-- Entry (p, q) of the staged block's product is entry (r, q) of the whole arrays' product, when the staged rows are
    rows of X (row p of the block being row r of X) and the staged right operand is W. -/
theorem block_entry (X : FVec Ideal S50000x128 .f32) (W : FVec Ideal S128x128 .f32)
    (x0 : Vec Ideal S2000x128 .f32) (x1 : Vec Ideal S128x128 .f32) (p : Fin 2000) (q : Fin 128) (r : Fin 50000)
    (hx0 : ∀ k : Fin 128, x0 (ix2 p k) = X (ix2 r k)) (hx1 : ∀ k : Fin 128, x1 (ix2 k q) = W (ix2 k q)) :
    k2_pay1 (F := Ideal) x0 x1 (ix2 p q) = dense X W (ix2 r q) := by
  unfold k2_pay1
  show matmul (F := Ideal) dot_S2000x128_S128x128_S2000x128_1_0_0_1_n_n none
      (truncf .bf16 (shapeCast S2000x128 x0 shapeCasts_S2000x128_S2000x128) bitsLt_bf16_f32) (truncf .bf16 x1 bitsLt_bf16_f32)
      (constant S2000x128 .f32 0x00000000#32) (ix2 p q) = _
  rw [shapeCast_self]
  refine (Cert.LibRowOps.matmul_entry dot_S2000x128_S128x128_S2000x128_1_0_0_1_n_n rfl _ _ p q).trans ?_
  rw [dense_apply]
  exact Finset.sum_congr rfl fun k _ => by
    show x0 (ix2 p k) * x1 (ix2 k q) = _
    rw [hx0 k, hx1 k]

/-- Where each window's block sits at grid point t: the left operand's and the output's blocks at block row t, the
    right operand's at the origin (decided over the 25 points). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the whole arrays' product. -/
theorem flushed_eq (c : Dev nD) (t : Fin cfg2.N) :
    (dat2 V c).flushed 2 t
      = ((cfg2.win 2).blk t).view.read (Elt Ideal) (dense (R := 50000) (N := 128) (V c main_v45) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e00, e01, e10, e11, e20, e21⟩ := index_facts t
  have hN : cfg2.N = 25 := N_2
  have ht : t.val < 25 := by have := t.isLt; omega
  funext j
  obtain ⟨p, q, rfl⟩ : ∃ (p : Fin 2000) (q : Fin 128), j = ix2 p q := ⟨j 0, j 1, eq_ix2 j⟩
  have hr : t.val * 2000 + p.val < 50000 := by have := p.isLt; omega
  have hI : ((cfg2.win 2).blk t).view.emb (ix2 p q) = ix2 (⟨t.val * 2000 + p.val, hr⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  show k2_pay1 (iblk2 V c 0 t) (iblk2 V c 1 t) (ix2 p q)
      = dense (R := 50000) (N := 128) (V c main_v45) (V c main_arg4) (((cfg2.win 2).blk t).view.emb (ix2 p q))
  refine (block_entry (V c main_v45) (V c main_arg4) (iblk2 V c 0 t) (iblk2 V c 1 t) p q ⟨t.val * 2000 + p.val, hr⟩
    (fun k => ?_) (fun k => ?_)).trans (congrArg (dense (R := 50000) (N := 128) (V c main_v45) (V c main_arg4)) hI.symm)
  · show V c main_v45 (((cfg2.win 0).blk t).view.emb (ix2 p k)) = V c main_v45 (ix2 (⟨t.val * 2000 + p.val, hr⟩ : Fin 50000) k)
    refine congrArg (V c main_v45) ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the output array lies in point t's block iff each coordinate lies in the block's range on its axis. -/
theorem mem_block (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v46).slice (win2_2.rect t)).set ↔ _
  rw [View.set_slice_whole, Rect.mem_set_unit]
  exact Iff.rfl

/-- Every entry of the output array is written: row r by grid point r / 2000. -/
theorem cover (i : S50000x128.Idx) :
    ∃ t : Fin cfg2.N, (cfg2.win 2).flush t = true ∧ i ∈ ((cfg2.win 2).blk t).view.set := by
  have h0 : (i 0).val < 50000 := (i 0).isLt
  have h1 : (i 1).val < 128 := (i 1).isLt
  have hN : grid2.N = 25 := N_2
  have hlt : (i 0).val / 2000 < cfg2.N := by show (i 0).val / 2000 < grid2.N; omega
  obtain ⟨e00, e01, e10, e11, e20, e21⟩ := index_facts ⟨(i 0).val / 2000, hlt⟩
  refine ⟨⟨(i 0).val / 2000, hlt⟩, flush2_2 _, ?_⟩
  rw [mem_block]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    have e : win2_2.index ⟨(i 0).val / 2000, hlt⟩ (0 : Fin 2) = (i 0).val / 2000 := e20
    omega
  | ⟨1, _⟩ =>
    show win2_2.index ⟨(i 0).val / 2000, hlt⟩ (1 : Fin 2) * 128 ≤ (i 1).val
      ∧ (i 1).val < win2_2.index ⟨(i 0).val / 2000, hlt⟩ (1 : Fin 2) * 128 + 128
    omega

/-- THE OUTPUT ARRAY when the region is left: the product of the two arrays the region read. -/
theorem final (c : Dev nD) :
    (dat2 V c).arrAt 2 cfg2.N = dense (R := 50000) (N := 128) (V c main_v45) (V c main_arg4) :=
  (dat2 V c).arrAt_eq_of_cover 2 _ (fun t _ => flushed_eq V c t) cover

end Cert.KernelIdeal.Region2

end
-- ==== Proof.Region3.lean ====
/-
  The second bias-and-floor region: what its output array holds when the region is left.

  The region walks 25 grid points. Point t stages rows 2000·t … 2000·t + 1999 of the array a : [50000, 128] and the whole
  one-row matrix b : [1, 128], adds b's row to every staged row, floors the sum at zero, and writes the block back to
  rows 2000·t … of the output. Entry (p, q) of the block is max (a[2000·t + p, q] + b[0, q]) 0; the 25 blocks tile the
  output, so the output array ends as that function of the two arrays the region read, whatever it found in its buffers.
-/
import proofs.«148464_j13365938225232_1_alg».proof.Proof.Gen.KernelIdeal.Frame
import proofs.«148464_j13365938225232_1_alg».proof.Proof.Spec
import proofs.«148464_j13365938225232_1_alg».proof.Proof.LibRowOps
import Idealize.ShloMosaic.Lib.Pipeline.Value
import Idealize.ShloMosaic.Lib.ValueIdx
import Idealize.ShloMosaic.Lib.ValueLayout
import proofs.«148464_j13365938225232_1_alg».proof.Proof.RowBias
set_option maxRecDepth 16384

noncomputable section

open scoped BigOperators

namespace Cert.KernelIdeal.Region3

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a whole rectangle. -/
theorem origin : (![0, 0] : Fin 2 → Nat) = fun _ => 0 := funext fun a => by fin_cases a <;> rfl

/-- Entry (p, q) of the staged block's result is entry (r, q) of the whole arrays' result, when row p of the staged block
    is row r of A and the staged one-row matrix is B. -/
theorem block_entry (A : FVec Ideal S50000x128 .f32) (B : FVec Ideal S1x128 .f32)
    (x0 : Vec Ideal S2000x128 .f32) (x1 : Vec Ideal S1x128 .f32) (p : Fin 2000) (q : Fin 128) (r : Fin 50000)
    (hx0 : x0 (ix2 p q) = A (ix2 r q)) (hx1 : x1 (ix2 (0 : Fin 1) q) = B (ix2 (0 : Fin 1) q)) :
    k3_pay1 (F := Ideal) x0 x1 (ix2 p q) = biasFloorRow A B (ix2 r q) := by
  unfold k3_pay1
  show maximumf (F := Ideal) (addf (F := Ideal) (shapeCast S2000x128 x0 shapeCasts_S2000x128_S2000x128)
      (broadcastTo S2000x128 (shapeCast S1x128 x1 shapeCasts_S1x128_S1x128) broadcasts_S1x128_S2000x128))
      (broadcast S2000x128 (Scalar.ofBits (F := Ideal) .f32 0x00000000#32)) (ix2 p q) = _
  rw [shapeCast_self, shapeCast_self, biasFloorRow_apply]
  show max (x0 (ix2 p q) + broadcastTo S2000x128 x1 broadcasts_S1x128_S2000x128 (ix2 p q)) _ = _
  rw [broadcastTo_1b_ab_apply, hx0, hx1]
  rfl

/-- Where each window's block sits at grid point t: the input's and the output's blocks at block row t, the one-row
    matrix at the origin (decided over the 25 points). -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the whole arrays' result. -/
theorem flushed_eq (c : Dev nD) (t : Fin cfg3.N) :
    (dat3 V c).flushed 2 t
      = ((cfg3.win 2).blk t).view.read (Elt Ideal) (biasFloorRow (R := 50000) (N := 128) (V c main_v59) (V c main_v60)) := by
  show (cfg3.win 2).cut (grid3.coords t) ((dat3 V c).after 2 t) = _
  rw [after3_2]
  unfold out3_2
  rw [View.canon_unit_zero origin]
  simp only [View.ld_unit_zero (S := S2000x128) origin, View.ld_unit_zero (S := S1x128) origin]
  obtain ⟨e00, e01, e10, e11, e20, e21⟩ := index_facts t
  have hN : cfg3.N = 25 := N_3
  have ht : t.val < 25 := by have := t.isLt; omega
  funext j
  obtain ⟨p, q, rfl⟩ : ∃ (p : Fin 2000) (q : Fin 128), j = ix2 p q := ⟨j 0, j 1, eq_ix2 j⟩
  have hr : t.val * 2000 + p.val < 50000 := by have := p.isLt; omega
  have hI : ((cfg3.win 2).blk t).view.emb (ix2 p q) = ix2 (⟨t.val * 2000 + p.val, hr⟩ : Fin 50000) q := by
    funext a; apply Fin.ext
    match a with
    | ⟨0, _⟩ => show win3_2.index t (0 : Fin 2) * 2000 + 1 * p.val = t.val * 2000 + p.val; omega
    | ⟨1, _⟩ => show win3_2.index t (1 : Fin 2) * 128 + 1 * q.val = q.val; omega
  show k3_pay1 (iblk3 V c 0 t) (iblk3 V c 1 t) (ix2 p q)
      = biasFloorRow (R := 50000) (N := 128) (V c main_v59) (V c main_v60) (((cfg3.win 2).blk t).view.emb (ix2 p q))
  refine (block_entry (V c main_v59) (V c main_v60) (iblk3 V c 0 t) (iblk3 V c 1 t) p q ⟨t.val * 2000 + p.val, hr⟩
    ?_ ?_).trans (congrArg (biasFloorRow (R := 50000) (N := 128) (V c main_v59) (V c main_v60)) hI.symm)
  · show V c main_v59 (((cfg3.win 0).blk t).view.emb (ix2 p q)) = V c main_v59 (ix2 (⟨t.val * 2000 + p.val, hr⟩ : Fin 50000) q)
    refine congrArg (V c main_v59) ?_
    funext a; apply Fin.ext
    match a with
    | ⟨0, _⟩ => show win3_0.index t (0 : Fin 2) * 2000 + 1 * p.val = t.val * 2000 + p.val; omega
    | ⟨1, _⟩ => show win3_0.index t (1 : Fin 2) * 128 + 1 * q.val = q.val; omega
  · show V c main_v60 (((cfg3.win 1).blk t).view.emb (ix2 (0 : Fin 1) q)) = V c main_v60 (ix2 (0 : Fin 1) q)
    refine congrArg (V c main_v60) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega

/-- An index of the output array lies in point t's block iff each coordinate lies in the block's range on its axis. -/
theorem mem_block (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v61).slice (win3_2.rect t)).set ↔ _
  rw [View.set_slice_whole, Rect.mem_set_unit]
  exact Iff.rfl

/-- Every entry of the output array is written: row r by grid point r / 2000. -/
theorem cover (i : S50000x128.Idx) :
    ∃ t : Fin cfg3.N, (cfg3.win 2).flush t = true ∧ i ∈ ((cfg3.win 2).blk t).view.set := by
  have h0 : (i 0).val < 50000 := (i 0).isLt
  have h1 : (i 1).val < 128 := (i 1).isLt
  have hN : grid3.N = 25 := N_3
  have hlt : (i 0).val / 2000 < cfg3.N := by show (i 0).val / 2000 < grid3.N; omega
  obtain ⟨e00, e01, e10, e11, e20, e21⟩ := index_facts ⟨(i 0).val / 2000, hlt⟩
  refine ⟨⟨(i 0).val / 2000, hlt⟩, flush3_2 _, ?_⟩
  rw [mem_block]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    have e : win3_2.index ⟨(i 0).val / 2000, hlt⟩ (0 : Fin 2) = (i 0).val / 2000 := e20
    omega
  | ⟨1, _⟩ =>
    show win3_2.index ⟨(i 0).val / 2000, hlt⟩ (1 : Fin 2) * 128 ≤ (i 1).val
      ∧ (i 1).val < win3_2.index ⟨(i 0).val / 2000, hlt⟩ (1 : Fin 2) * 128 + 128
    omega

/-- THE OUTPUT ARRAY when the region is left: the floored sum of the two arrays the region read. -/
theorem final (c : Dev nD) :
    (dat3 V c).arrAt 2 cfg3.N = biasFloorRow (R := 50000) (N := 128) (V c main_v59) (V c main_v60) :=
  (dat3 V c).arrAt_eq_of_cover 2 _ (fun t _ => flushed_eq V c t) cover

end Cert.KernelIdeal.Region3

end
-- ==== Proof.Region4.lean ====
/-
  The last region (product plus bias): what its output array holds when the region is left.

  The region walks 25 grid points. Point t stages rows 2000·t … 2000·t + 1999 of the array h : [50000, 128], the whole
  weight w : [128, 64] and the whole one-row matrix b : [1, 64], multiplies the staged rows by w into a zero
  accumulator, adds b's row to every row of the product, and writes the block back to rows 2000·t … of the output
  [50000, 64]. Entry (p, q) of the block is Σ_k h[2000·t + p, k] · w[k, q] + b[0, q]; the 25 blocks tile the output, so
  the output array ends as that function of the three arrays the region read.
-/
import proofs.«148464_j13365938225232_1_alg».proof.Proof.Gen.KernelIdeal.Frame
import proofs.«148464_j13365938225232_1_alg».proof.Proof.Spec
import proofs.«148464_j13365938225232_1_alg».proof.Proof.LibRowOps
import Idealize.ShloMosaic.Lib.Pipeline.Value
import Idealize.ShloMosaic.Lib.ValueIdx
import Idealize.ShloMosaic.Lib.ValueLayout
import proofs.«148464_j13365938225232_1_alg».proof.Proof.RowBias
set_option maxRecDepth 16384

noncomputable section

open scoped BigOperators

namespace Cert.KernelIdeal.Region4

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a whole rectangle. -/
theorem origin : (![0, 0] : Fin 2 → Nat) = fun _ => 0 := funext fun a => by fin_cases a <;> rfl

/-- Entry (p, q) of the staged block's result is entry (r, q) of the whole arrays' result, when row p of the staged block
    is row r of H and the staged weight and one-row matrix are W and B. -/
theorem block_entry (H : FVec Ideal S50000x128 .f32) (W : FVec Ideal S128x64 .f32) (B : FVec Ideal S1x64 .f32)
    (x0 : Vec Ideal S2000x128 .f32) (x1 : Vec Ideal S128x64 .f32) (x2 : Vec Ideal S1x64 .f32)
    (p : Fin 2000) (q : Fin 64) (r : Fin 50000)
    (hx0 : ∀ k : Fin 128, x0 (ix2 p k) = H (ix2 r k)) (hx1 : ∀ k : Fin 128, x1 (ix2 k q) = W (ix2 k q))
    (hx2 : x2 (ix2 (0 : Fin 1) q) = B (ix2 (0 : Fin 1) q)) :
    k4_pay1 (F := Ideal) x0 x1 x2 (ix2 p q) = biasAddRow (dense H W) B (ix2 r q) := by
  unfold k4_pay1
  show addf (F := Ideal) (matmul (F := Ideal) dot_S2000x128_S128x64_S2000x64_1_0_0_1_n_n none
        (truncf .bf16 (shapeCast S2000x128 x0 shapeCasts_S2000x128_S2000x128) bitsLt_bf16_f32) (truncf .bf16 x1 bitsLt_bf16_f32)
        (constant S2000x64 .f32 0x00000000#32))
      (broadcastTo S2000x64 (shapeCast S1x64 x2 shapeCasts_S1x64_S1x64) broadcasts_S1x64_S2000x64) (ix2 p q) = _
  rw [shapeCast_self, shapeCast_self, biasAddRow_apply, dense_apply]
  show matmul (F := Ideal) dot_S2000x128_S128x64_S2000x64_1_0_0_1_n_n none (truncf .bf16 x0 bitsLt_bf16_f32) (truncf .bf16 x1 bitsLt_bf16_f32)
        (constant S2000x64 .f32 0x00000000#32) (ix2 p q)
      + broadcastTo S2000x64 x2 broadcasts_S1x64_S2000x64 (ix2 p q) = _
  rw [broadcastTo_1b_ab_apply, hx2]
  refine congrArg (· + B (ix2 (0 : Fin 1) q)) ?_
  refine (Cert.LibRowOps.matmul_entry dot_S2000x128_S128x64_S2000x64_1_0_0_1_n_n rfl _ _ p q).trans ?_
  exact Finset.sum_congr rfl fun k _ => by
    show x0 (ix2 p k) * x1 (ix2 k q) = _
    rw [hx0 k, hx1 k]

/-- Where each window's block sits at grid point t: the input's and the output's blocks at block row t, the weight and
    the one-row matrix at the origin (decided over the 25 points). -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What grid point t writes back is block t of the whole arrays' result. -/
theorem flushed_eq (c : Dev nD) (t : Fin cfg4.N) :
    (dat4 V c).flushed 3 t
      = ((cfg4.win 3).blk t).view.read (Elt Ideal)
          (biasAddRow (R := 50000) (N := 64) (dense (R := 50000) (N := 64) (V c main_v61) (V c main_arg6)) (V c main_v62)) := by
  show (cfg4.win 3).cut (grid4.coords t) ((dat4 V c).after 3 t) = _
  rw [after4_3]
  unfold out4_3
  rw [View.canon_unit_zero origin]
  simp only [View.ld_unit_zero (S := S2000x128) origin, View.ld_unit_zero (S := S128x64) origin, View.ld_unit_zero (S := S1x64) origin]
  obtain ⟨e00, e01, e10, e11, e20, e21, e30, e31⟩ := index_facts t
  have hN : cfg4.N = 25 := N_4
  have ht : t.val < 25 := by have := t.isLt; omega
  funext j
  obtain ⟨p, q, rfl⟩ : ∃ (p : Fin 2000) (q : Fin 64), j = ix2 p q := ⟨j 0, j 1, eq_ix2 j⟩
  have hr : t.val * 2000 + p.val < 50000 := by have := p.isLt; omega
  have hI : ((cfg4.win 3).blk t).view.emb (ix2 p q) = ix2 (⟨t.val * 2000 + p.val, hr⟩ : Fin 50000) q := by
    funext a; apply Fin.ext
    match a with
    | ⟨0, _⟩ => show win4_3.index t (0 : Fin 2) * 2000 + 1 * p.val = t.val * 2000 + p.val; omega
    | ⟨1, _⟩ => show win4_3.index t (1 : Fin 2) * 64 + 1 * q.val = q.val; omega
  show k4_pay1 (iblk4 V c 0 t) (iblk4 V c 1 t) (iblk4 V c 2 t) (ix2 p q)
      = biasAddRow (R := 50000) (N := 64) (dense (R := 50000) (N := 64) (V c main_v61) (V c main_arg6)) (V c main_v62)
          (((cfg4.win 3).blk t).view.emb (ix2 p q))
  refine (block_entry (V c main_v61) (V c main_arg6) (V c main_v62) (iblk4 V c 0 t) (iblk4 V c 1 t) (iblk4 V c 2 t) p q
    ⟨t.val * 2000 + p.val, hr⟩ (fun k => ?_) (fun k => ?_) ?_).trans
    (congrArg (biasAddRow (R := 50000) (N := 64) (dense (R := 50000) (N := 64) (V c main_v61) (V c main_arg6)) (V c main_v62)) hI.symm)
  · show V c main_v61 (((cfg4.win 0).blk t).view.emb (ix2 p k)) = V c main_v61 (ix2 (⟨t.val * 2000 + p.val, hr⟩ : Fin 50000) k)
    refine congrArg (V c main_v61) ?_
    funext a; apply Fin.ext
    match a with
    | ⟨0, _⟩ => show win4_0.index t (0 : Fin 2) * 2000 + 1 * p.val = t.val * 2000 + p.val; omega
    | ⟨1, _⟩ => show win4_0.index t (1 : Fin 2) * 128 + 1 * k.val = k.val; omega
  · show V c main_arg6 (((cfg4.win 1).blk t).view.emb (ix2 k q)) = V c main_arg6 (ix2 k q)
    refine congrArg (V c main_arg6) ?_
    funext a; apply Fin.ext
    match a with
    | ⟨0, _⟩ => show win4_1.index t (0 : Fin 2) * 128 + 1 * k.val = k.val; omega
    | ⟨1, _⟩ => show win4_1.index t (1 : Fin 2) * 64 + 1 * q.val = q.val; omega
  · show V c main_v62 (((cfg4.win 2).blk t).view.emb (ix2 (0 : Fin 1) q)) = V c main_v62 (ix2 (0 : Fin 1) q)
    refine congrArg (V c main_v62) ?_
    funext a; apply Fin.ext
    match a with
    | ⟨0, _⟩ => show win4_2.index t (0 : Fin 2) * 1 + 1 * 0 = 0; omega
    | ⟨1, _⟩ => show win4_2.index t (1 : Fin 2) * 64 + 1 * q.val = q.val; omega

/-- An index of the output array lies in point t's block iff each coordinate lies in the block's range on its axis. -/
theorem mem_block (t : Fin cfg4.N) (i : S50000x64.Idx) :
    i ∈ ((cfg4.win 3).blk t).view.set ↔ ∀ a : Fin 2, win4_3.index t a * S2000x64.size a ≤ (i a).val
      ∧ (i a).val < win4_3.index t a * S2000x64.size a + S2000x64.size a := by
  show i ∈ ((View.whole main_v63).slice (win4_3.rect t)).set ↔ _
  rw [View.set_slice_whole, Rect.mem_set_unit]
  exact Iff.rfl

/-- Every entry of the output array is written: row r by grid point r / 2000. -/
theorem cover (i : S50000x64.Idx) :
    ∃ t : Fin cfg4.N, (cfg4.win 3).flush t = true ∧ i ∈ ((cfg4.win 3).blk t).view.set := by
  have h0 : (i 0).val < 50000 := (i 0).isLt
  have h1 : (i 1).val < 64 := (i 1).isLt
  have hN : grid4.N = 25 := N_4
  have hlt : (i 0).val / 2000 < cfg4.N := by show (i 0).val / 2000 < grid4.N; omega
  obtain ⟨e00, e01, e10, e11, e20, e21, e30, e31⟩ := index_facts ⟨(i 0).val / 2000, hlt⟩
  refine ⟨⟨(i 0).val / 2000, hlt⟩, flush4_3 _, ?_⟩
  rw [mem_block]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    have e : win4_3.index ⟨(i 0).val / 2000, hlt⟩ (0 : Fin 2) = (i 0).val / 2000 := e30
    omega
  | ⟨1, _⟩ =>
    show win4_3.index ⟨(i 0).val / 2000, hlt⟩ (1 : Fin 2) * 64 ≤ (i 1).val
      ∧ (i 1).val < win4_3.index ⟨(i 0).val / 2000, hlt⟩ (1 : Fin 2) * 64 + 64
    omega

/-- THE OUTPUT ARRAY when the region is left: the product of the first two arrays the region read plus the third's row. -/
theorem final (c : Dev nD) :
    (dat4 V c).arrAt 3 cfg4.N
      = biasAddRow (R := 50000) (N := 64) (dense (R := 50000) (N := 64) (V c main_v61) (V c main_arg6)) (V c main_v62) :=
  (dat4 V c).arrAt_eq_of_cover 3 _ (fun t _ => flushed_eq V c t) cover

end Cert.KernelIdeal.Region4

end
-- ==== Proof.Fold.lean ====
/-
  The kernel program's result buffer, followed back through the program to the arguments.

  Between the regions the program runs host operations. Each stretch of them is read from ANY buffer contents W it may
  start from: the buffer it is asked about holds the operations' composed term of W at the buffers they read, and a
  buffer no operation of the stretch writes holds what it held. The stretch before the first region computes the edge
  sources, the edge destinations and the per-edge norm from the edge list; the stretches before the two bias regions
  compute the aggregation of the previous product from those three vectors and recast the bias as a one-row matrix;
  the stretch before the last region recasts the last bias. Each region leaves its output array at the whole-array
  function of the arrays it read (the five region modules) and every other buffer as it found it.
  Composed, the result buffer holds the network `net` over the kernel program's aggregation of the edge list, applied
  to the argument arrays as launched.
-/
import proofs.«148464_j13365938225232_1_alg».proof.Proof.Gen.KernelIdeal.Frame
import proofs.«148464_j13365938225232_1_alg».proof.Proof.KAgg
import proofs.«148464_j13365938225232_1_alg».proof.Proof.Region0
import proofs.«148464_j13365938225232_1_alg».proof.Proof.Region1
import proofs.«148464_j13365938225232_1_alg».proof.Proof.Region2
import proofs.«148464_j13365938225232_1_alg».proof.Proof.Region3
import proofs.«148464_j13365938225232_1_alg».proof.Proof.Region4
import proofs.«148464_j13365938225232_1_alg».proof.Proof.RowBias
import Idealize.ShloMosaic.Lib.StableHlo.Run

set_option maxRecDepth 16384

noncomputable section

namespace Cert.KernelIdeal.Fold

open Cert.KernelIdeal Cert.KernelIdeal.Gen Cert.KernelIdeal.Agg Cert.GraphNet
open Idealize.ShloMosaic Idealize.ShloMosaic.TcCoe Idealize.ShloMosaic.StableHlo Idealize.SL.Sem

/-! ## The host stretches, from any contents -/

section Stretches

variable (W : Valuation τ sig (Elt Ideal))

/-! ### Before the first region: the edge vectors and the norm -/

theorem e_row : after hostOps0_2 (after hostOps0_1 (after hostOps0 W)) (Proc.devRef .tc main_v3) = rowVec (W (Proc.devRef .tc main_arg1)) := by
  dsimp only [hostOps0, hostOps0_1, hostOps0_2]; after_results; rfl
theorem e_col : after hostOps0_2 (after hostOps0_1 (after hostOps0 W)) (Proc.devRef .tc main_v6) = colVec (W (Proc.devRef .tc main_arg1)) := by
  dsimp only [hostOps0, hostOps0_1, hostOps0_2]; after_results; rfl
/-- After the first stretch: the sources, the destinations, the degree's comparison with zero and its reciprocal root. -/
theorem p0_row : after hostOps0 W (Proc.devRef .tc main_v3) = rowVec (W (Proc.devRef .tc main_arg1)) := by
  dsimp only [hostOps0]; after_results; rfl
theorem p0_col : after hostOps0 W (Proc.devRef .tc main_v6) = colVec (W (Proc.devRef .tc main_arg1)) := by
  dsimp only [hostOps0]; after_results; rfl
theorem p0_pos : after hostOps0 W (Proc.devRef .tc main_v12)
    = cmpf (F := Ideal) .ogt (degVec (W (Proc.devRef .tc main_arg1))) (broadcastInDim S50000 ![] bcast_S_S50000 (constant S_ .f32 0x00000000#32)) := by
  dsimp only [hostOps0]; after_results; rfl
theorem p0_rsqrt : after hostOps0 W (Proc.devRef .tc main_v13) = Host.rsqrt (degVec (W (Proc.devRef .tc main_arg1))) := by
  dsimp only [hostOps0]; after_results; rfl
theorem p0_zero : after hostOps0 W (Proc.devRef .tc main_cst_2) = constant (F := Ideal) S_ .f32 0x00000000#32 := by
  dsimp only [hostOps0]; after_results
/-- After the selection: d where the degree is positive, zero elsewhere; the edge vectors untouched. -/
theorem p1_dinv : after hostOps0_1 W (Proc.devRef .tc main_v14)
    = select (W (Proc.devRef .tc main_v12)) (W (Proc.devRef .tc main_v13)) (broadcastInDim S50000 ![] bcast_S_S50000 (id (W (Proc.devRef .tc main_cst_2)))) := by
  dsimp only [hostOps0_1]; after_results; rfl
theorem p1_main_v3 : after hostOps0_1 W (Proc.devRef .tc main_v3) = W (Proc.devRef .tc main_v3) := by
  dsimp only [hostOps0_1]; after_results
theorem p1_main_v6 : after hostOps0_1 W (Proc.devRef .tc main_v6) = W (Proc.devRef .tc main_v6) := by
  dsimp only [hostOps0_1]; after_results
set_option maxHeartbeats 8000000 in
/-- After the third stretch: d gathered at the sources times d gathered at the destinations. -/
theorem p2_norm : after hostOps0_2 W (Proc.devRef .tc main_v29)
    = (mulf (F := Ideal) (Host.gather gather_S50000_S690000x1_S690000_n_0_n_n_0_1_1 (W (Proc.devRef .tc main_v14) : FVec Ideal S50000 .f32) (broadcastInDim S690000x1 ![0] bcast_S690000_S690000x1_0 (select (cmpi .slt (W (Proc.devRef .tc main_v3)) (broadcastInDim S690000 ![] bcast_S_S690000 (constantI S_ 32 0#32))) (addi (W (Proc.devRef .tc main_v3)) (broadcastInDim S690000 ![] bcast_S_S690000 (constantI S_ 32 50000#32))) (W (Proc.devRef .tc main_v3)))))
        (Host.gather gather_S50000_S690000x1_S690000_n_0_n_n_0_1_1 (W (Proc.devRef .tc main_v14) : FVec Ideal S50000 .f32) (broadcastInDim S690000x1 ![0] bcast_S690000_S690000x1_0 (select (cmpi .slt (W (Proc.devRef .tc main_v6)) (broadcastInDim S690000 ![] bcast_S_S690000 (constantI S_ 32 0#32))) (addi (W (Proc.devRef .tc main_v6)) (broadcastInDim S690000 ![] bcast_S_S690000 (constantI S_ 32 50000#32))) (W (Proc.devRef .tc main_v6))))) : FVec Ideal S690000 .f32) := by
  dsimp only [hostOps0_2]; after_results_simp
theorem e_norm : after hostOps0_2 (after hostOps0_1 (after hostOps0 W)) (Proc.devRef .tc main_v29) = normVec (W (Proc.devRef .tc main_arg1)) := by
  rw [p2_norm, p1_dinv, p1_main_v3, p1_main_v6, p0_pos, p0_rsqrt, p0_zero, p0_row, p0_col]
  rfl
theorem e_main_arg0 : after hostOps0_2 (after hostOps0_1 (after hostOps0 W)) (Proc.devRef .tc main_arg0) = W (Proc.devRef .tc main_arg0) := by
  dsimp only [hostOps0, hostOps0_1, hostOps0_2]; after_results
theorem e_main_arg2 : after hostOps0_2 (after hostOps0_1 (after hostOps0 W)) (Proc.devRef .tc main_arg2) = W (Proc.devRef .tc main_arg2) := by
  dsimp only [hostOps0, hostOps0_1, hostOps0_2]; after_results
theorem e_main_arg3 : after hostOps0_2 (after hostOps0_1 (after hostOps0 W)) (Proc.devRef .tc main_arg3) = W (Proc.devRef .tc main_arg3) := by
  dsimp only [hostOps0, hostOps0_1, hostOps0_2]; after_results
theorem e_main_arg4 : after hostOps0_2 (after hostOps0_1 (after hostOps0 W)) (Proc.devRef .tc main_arg4) = W (Proc.devRef .tc main_arg4) := by
  dsimp only [hostOps0, hostOps0_1, hostOps0_2]; after_results
theorem e_main_arg5 : after hostOps0_2 (after hostOps0_1 (after hostOps0 W)) (Proc.devRef .tc main_arg5) = W (Proc.devRef .tc main_arg5) := by
  dsimp only [hostOps0, hostOps0_1, hostOps0_2]; after_results
theorem e_main_arg6 : after hostOps0_2 (after hostOps0_1 (after hostOps0 W)) (Proc.devRef .tc main_arg6) = W (Proc.devRef .tc main_arg6) := by
  dsimp only [hostOps0, hostOps0_1, hostOps0_2]; after_results
theorem e_main_arg7 : after hostOps0_2 (after hostOps0_1 (after hostOps0 W)) (Proc.devRef .tc main_arg7) = W (Proc.devRef .tc main_arg7) := by
  dsimp only [hostOps0, hostOps0_1, hostOps0_2]; after_results

/-! ### Before the first bias region: the aggregation of the first product, and the bias as a one-row matrix -/

set_option maxHeartbeats 8000000 in
theorem s1_agg : after hostOps1 W (Proc.devRef .tc main_v43)
    = aggOf (W (Proc.devRef .tc main_v3)) (W (Proc.devRef .tc main_v6)) (W (Proc.devRef .tc main_v29)) (W (Proc.devRef .tc main_v30)) := by
  dsimp only [hostOps1]; after_results_simp; rfl
theorem s1_bias : after hostOps1 W (Proc.devRef .tc main_v44) = shapeCast S1x128 (W (Proc.devRef .tc main_arg3)) shapeCasts_S128_S1x128 := by
  dsimp only [hostOps1]; after_results; rfl
theorem s1_main_v3 : after hostOps1 W (Proc.devRef .tc main_v3) = W (Proc.devRef .tc main_v3) := by
  dsimp only [hostOps1]; after_results
theorem s1_main_v6 : after hostOps1 W (Proc.devRef .tc main_v6) = W (Proc.devRef .tc main_v6) := by
  dsimp only [hostOps1]; after_results
theorem s1_main_v29 : after hostOps1 W (Proc.devRef .tc main_v29) = W (Proc.devRef .tc main_v29) := by
  dsimp only [hostOps1]; after_results
theorem s1_main_arg4 : after hostOps1 W (Proc.devRef .tc main_arg4) = W (Proc.devRef .tc main_arg4) := by
  dsimp only [hostOps1]; after_results
theorem s1_main_arg5 : after hostOps1 W (Proc.devRef .tc main_arg5) = W (Proc.devRef .tc main_arg5) := by
  dsimp only [hostOps1]; after_results
theorem s1_main_arg6 : after hostOps1 W (Proc.devRef .tc main_arg6) = W (Proc.devRef .tc main_arg6) := by
  dsimp only [hostOps1]; after_results
theorem s1_main_arg7 : after hostOps1 W (Proc.devRef .tc main_arg7) = W (Proc.devRef .tc main_arg7) := by
  dsimp only [hostOps1]; after_results

/-! ### Before the second bias region: the aggregation of the second product, and the bias as a one-row matrix -/

set_option maxHeartbeats 8000000 in
theorem s3_agg : after hostOps3 W (Proc.devRef .tc main_v59)
    = aggOf (W (Proc.devRef .tc main_v3)) (W (Proc.devRef .tc main_v6)) (W (Proc.devRef .tc main_v29)) (W (Proc.devRef .tc main_v46)) := by
  dsimp only [hostOps3]; after_results_simp; rfl
theorem s3_bias : after hostOps3 W (Proc.devRef .tc main_v60) = shapeCast S1x128 (W (Proc.devRef .tc main_arg5)) shapeCasts_S128_S1x128 := by
  dsimp only [hostOps3]; after_results; rfl
theorem s3_main_arg6 : after hostOps3 W (Proc.devRef .tc main_arg6) = W (Proc.devRef .tc main_arg6) := by
  dsimp only [hostOps3]; after_results
theorem s3_main_arg7 : after hostOps3 W (Proc.devRef .tc main_arg7) = W (Proc.devRef .tc main_arg7) := by
  dsimp only [hostOps3]; after_results

/-! ### Before the last region: the last bias as a one-row matrix -/

theorem s4_bias : after hostOps4 W (Proc.devRef .tc main_v62) = shapeCast S1x64 (W (Proc.devRef .tc main_arg7)) shapeCasts_S64_S1x64 := by
  dsimp only [hostOps4]; after_results; rfl
theorem s4_main_v61 : after hostOps4 W (Proc.devRef .tc main_v61) = W (Proc.devRef .tc main_v61) := by
  dsimp only [hostOps4]; after_results
theorem s4_main_arg6 : after hostOps4 W (Proc.devRef .tc main_arg6) = W (Proc.devRef .tc main_arg6) := by
  dsimp only [hostOps4]; after_results

end Stretches

/-! ## The run's boundaries -/

variable (m : (ℓ : Loc nD τ sig) → Buf (Elt Ideal) ℓ) (ρ : Dev nD → PrngReg) (c : Dev nD)

/-- A buffer no region and no later stretch writes holds, at each later boundary, what it held at the first region's
    entry. -/
theorem at4 (b : Ref sig .tc) (h0 : ∀ w, Pipeline.arrRef spec0 w ≠ b) :
    W4 m ρ c (Proc.devRef .tc b) = W3 m ρ c (Proc.devRef .tc b) := W4_of_ne m ρ c b h0
theorem at5 (b : Ref sig .tc) (h0 : ∀ w, Pipeline.arrRef spec0 w ≠ b)
    (k1 : after hostOps1 (W4 m ρ c) (Proc.devRef .tc b) = W4 m ρ c (Proc.devRef .tc b)) :
    W5 m ρ c (Proc.devRef .tc b) = W3 m ρ c (Proc.devRef .tc b) := k1.trans (at4 m ρ c b h0)
theorem at6 (b : Ref sig .tc) (h0 : ∀ w, Pipeline.arrRef spec0 w ≠ b)
    (k1 : after hostOps1 (W4 m ρ c) (Proc.devRef .tc b) = W4 m ρ c (Proc.devRef .tc b)) (h1 : ∀ w, Pipeline.arrRef spec1 w ≠ b) :
    W6 m ρ c (Proc.devRef .tc b) = W3 m ρ c (Proc.devRef .tc b) := (W6_of_ne m ρ c b h1).trans (at5 m ρ c b h0 k1)
theorem at7 (b : Ref sig .tc) (h0 : ∀ w, Pipeline.arrRef spec0 w ≠ b)
    (k1 : after hostOps1 (W4 m ρ c) (Proc.devRef .tc b) = W4 m ρ c (Proc.devRef .tc b)) (h1 : ∀ w, Pipeline.arrRef spec1 w ≠ b)
    (h2 : ∀ w, Pipeline.arrRef spec2 w ≠ b) :
    W7 m ρ c (Proc.devRef .tc b) = W3 m ρ c (Proc.devRef .tc b) := (W7_of_ne m ρ c b h2).trans (at6 m ρ c b h0 k1 h1)
theorem at9 (b : Ref sig .tc) (h0 : ∀ w, Pipeline.arrRef spec0 w ≠ b)
    (k1 : after hostOps1 (W4 m ρ c) (Proc.devRef .tc b) = W4 m ρ c (Proc.devRef .tc b)) (h1 : ∀ w, Pipeline.arrRef spec1 w ≠ b)
    (h2 : ∀ w, Pipeline.arrRef spec2 w ≠ b) (k3 : after hostOps3 (W7 m ρ c) (Proc.devRef .tc b) = W7 m ρ c (Proc.devRef .tc b))
    (h3 : ∀ w, Pipeline.arrRef spec3 w ≠ b) :
    W9 m ρ c (Proc.devRef .tc b) = W3 m ρ c (Proc.devRef .tc b) :=
  (W9_of_ne m ρ c b h3).trans (k3.trans (at7 m ρ c b h0 k1 h1 h2))

/-- THE RESULT BUFFER at the last boundary: the network over the kernel program's aggregation of the edge list, of the
    arguments as launched. -/
theorem result :
    W11 m ρ c (Proc.devRef .tc main_v63)
      = net (R := 50000) (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  -- the first region's entry
  have a0 : W3 m ρ c (Proc.devRef .tc main_arg0) = (m ((c.tc : Thread nD τ).loc main_arg0)) := e_main_arg0 (W0 m ρ c)
  have a2 : W3 m ρ c (Proc.devRef .tc main_arg2) = (m ((c.tc : Thread nD τ).loc main_arg2)) := e_main_arg2 (W0 m ρ c)
  have a3 : W3 m ρ c (Proc.devRef .tc main_arg3) = (m ((c.tc : Thread nD τ).loc main_arg3)) := e_main_arg3 (W0 m ρ c)
  have a4 : W3 m ρ c (Proc.devRef .tc main_arg4) = (m ((c.tc : Thread nD τ).loc main_arg4)) := e_main_arg4 (W0 m ρ c)
  have a5 : W3 m ρ c (Proc.devRef .tc main_arg5) = (m ((c.tc : Thread nD τ).loc main_arg5)) := e_main_arg5 (W0 m ρ c)
  have a6 : W3 m ρ c (Proc.devRef .tc main_arg6) = (m ((c.tc : Thread nD τ).loc main_arg6)) := e_main_arg6 (W0 m ρ c)
  have a7 : W3 m ρ c (Proc.devRef .tc main_arg7) = (m ((c.tc : Thread nD τ).loc main_arg7)) := e_main_arg7 (W0 m ρ c)
  have r3 : W3 m ρ c (Proc.devRef .tc main_v3) = rowVec (m ((c.tc : Thread nD τ).loc main_arg1)) := e_row (W0 m ρ c)
  have r6 : W3 m ρ c (Proc.devRef .tc main_v6) = colVec (m ((c.tc : Thread nD τ).loc main_arg1)) := e_col (W0 m ρ c)
  have r29 : W3 m ρ c (Proc.devRef .tc main_v29) = normVec (m ((c.tc : Thread nD τ).loc main_arg1)) := e_norm (W0 m ρ c)
  -- the first product
  have h30 : W4 m ρ c (Proc.devRef .tc main_v30) = dense (R := 50000) (N := 128) (m ((c.tc : Thread nD τ).loc main_arg0)) (m ((c.tc : Thread nD τ).loc main_arg2)) := by
    refine (W4_arr m ρ c 2).trans ((Region0.final (V3 m ρ) c).trans ?_)
    show dense (R := 50000) (N := 128) (W3 m ρ c (Proc.devRef .tc main_arg0)) (W3 m ρ c (Proc.devRef .tc main_arg2)) = _
    rw [a0, a2]
  -- its aggregation and the first bias
  have h43 : W5 m ρ c (Proc.devRef .tc main_v43)
      = agg (m ((c.tc : Thread nD τ).loc main_arg1)) (dense (R := 50000) (N := 128) (m ((c.tc : Thread nD τ).loc main_arg0)) (m ((c.tc : Thread nD τ).loc main_arg2))) := by
    refine (s1_agg (W4 m ρ c)).trans ?_
    rw [h30, at4 m ρ c main_v3 (by decide), at4 m ρ c main_v6 (by decide), at4 m ρ c main_v29 (by decide), r3, r6, r29]
    rfl
  have h44 : W5 m ρ c (Proc.devRef .tc main_v44) = shapeCast S1x128 (m ((c.tc : Thread nD τ).loc main_arg3)) shapeCasts_S128_S1x128 := by
    refine (s1_bias (W4 m ρ c)).trans ?_
    rw [at4 m ρ c main_arg3 (by decide), a3]
  -- the first floor
  have h45 : W6 m ρ c (Proc.devRef .tc main_v45)
      = biasFloor (agg (m ((c.tc : Thread nD τ).loc main_arg1)) (dense (R := 50000) (N := 128) (m ((c.tc : Thread nD τ).loc main_arg0)) (m ((c.tc : Thread nD τ).loc main_arg2)))) (m ((c.tc : Thread nD τ).loc main_arg3)) := by
    refine (W6_arr m ρ c 2).trans ((Region1.final (V5 m ρ) c).trans ?_)
    show biasFloorRow (R := 50000) (N := 128) (W5 m ρ c (Proc.devRef .tc main_v43)) (W5 m ρ c (Proc.devRef .tc main_v44)) = _
    rw [h43, h44, biasFloorRow_cast]
  -- the second product
  have h46 : W7 m ρ c (Proc.devRef .tc main_v46)
      = dense (R := 50000) (N := 128) (biasFloor (agg (m ((c.tc : Thread nD τ).loc main_arg1)) (dense (R := 50000) (N := 128) (m ((c.tc : Thread nD τ).loc main_arg0)) (m ((c.tc : Thread nD τ).loc main_arg2)))) (m ((c.tc : Thread nD τ).loc main_arg3))) (m ((c.tc : Thread nD τ).loc main_arg4)) := by
    refine (W7_arr m ρ c 2).trans ((Region2.final (V6 m ρ) c).trans ?_)
    show dense (R := 50000) (N := 128) (W6 m ρ c (Proc.devRef .tc main_v45)) (W6 m ρ c (Proc.devRef .tc main_arg4)) = _
    rw [h45, at6 m ρ c main_arg4 (by decide) (s1_main_arg4 _) (by decide), a4]
  -- its aggregation and the second bias
  have h59 : W8 m ρ c (Proc.devRef .tc main_v59)
      = agg (m ((c.tc : Thread nD τ).loc main_arg1)) (dense (R := 50000) (N := 128) (biasFloor (agg (m ((c.tc : Thread nD τ).loc main_arg1)) (dense (R := 50000) (N := 128) (m ((c.tc : Thread nD τ).loc main_arg0)) (m ((c.tc : Thread nD τ).loc main_arg2)))) (m ((c.tc : Thread nD τ).loc main_arg3))) (m ((c.tc : Thread nD τ).loc main_arg4))) := by
    refine (s3_agg (W7 m ρ c)).trans ?_
    rw [h46, at7 m ρ c main_v3 (by decide) (s1_main_v3 _) (by decide) (by decide),
      at7 m ρ c main_v6 (by decide) (s1_main_v6 _) (by decide) (by decide),
      at7 m ρ c main_v29 (by decide) (s1_main_v29 _) (by decide) (by decide), r3, r6, r29]
    rfl
  have h60 : W8 m ρ c (Proc.devRef .tc main_v60) = shapeCast S1x128 (m ((c.tc : Thread nD τ).loc main_arg5)) shapeCasts_S128_S1x128 := by
    refine (s3_bias (W7 m ρ c)).trans ?_
    rw [at7 m ρ c main_arg5 (by decide) (s1_main_arg5 _) (by decide) (by decide), a5]
  -- the second floor
  have h61 : W9 m ρ c (Proc.devRef .tc main_v61)
      = biasFloor (agg (m ((c.tc : Thread nD τ).loc main_arg1)) (dense (R := 50000) (N := 128) (biasFloor (agg (m ((c.tc : Thread nD τ).loc main_arg1)) (dense (R := 50000) (N := 128) (m ((c.tc : Thread nD τ).loc main_arg0)) (m ((c.tc : Thread nD τ).loc main_arg2)))) (m ((c.tc : Thread nD τ).loc main_arg3))) (m ((c.tc : Thread nD τ).loc main_arg4)))) (m ((c.tc : Thread nD τ).loc main_arg5)) := by
    refine (W9_arr m ρ c 2).trans ((Region3.final (V8 m ρ) c).trans ?_)
    show biasFloorRow (R := 50000) (N := 128) (W8 m ρ c (Proc.devRef .tc main_v59)) (W8 m ρ c (Proc.devRef .tc main_v60)) = _
    rw [h59, h60, biasFloorRow_cast]
  -- the last region's entry
  have h62 : W10 m ρ c (Proc.devRef .tc main_v62) = shapeCast S1x64 (m ((c.tc : Thread nD τ).loc main_arg7)) shapeCasts_S64_S1x64 := by
    refine (s4_bias (W9 m ρ c)).trans ?_
    rw [at9 m ρ c main_arg7 (by decide) (s1_main_arg7 _) (by decide) (by decide) (s3_main_arg7 _) (by decide), a7]
  have h61' : W10 m ρ c (Proc.devRef .tc main_v61) = W9 m ρ c (Proc.devRef .tc main_v61) := s4_main_v61 (W9 m ρ c)
  have h6 : W10 m ρ c (Proc.devRef .tc main_arg6) = (m ((c.tc : Thread nD τ).loc main_arg6)) :=
    (s4_main_arg6 (W9 m ρ c)).trans ((at9 m ρ c main_arg6 (by decide) (s1_main_arg6 _) (by decide) (by decide) (s3_main_arg6 _) (by decide)).trans a6)
  -- the last region
  refine (W11_arr m ρ c 3).trans ((Region4.final (V10 m ρ) c).trans ?_)
  show biasAddRow (R := 50000) (N := 64) (dense (R := 50000) (N := 64) (W10 m ρ c (Proc.devRef .tc main_v61)) (W10 m ρ c (Proc.devRef .tc main_arg6)))
      (W10 m ρ c (Proc.devRef .tc main_v62)) = _
  rw [h61', h61, h6, h62, biasAddRow_cast]
  rfl

end Cert.KernelIdeal.Fold

end
-- ==== Proof.RAgg.lean ====
/-
  The neighbourhood aggregation of the graph network, as the reference program's host operations spell it.

  From the edge list e : [2, 640000] (row 0 the sources, row 1 the destinations) the program appends one self-loop per
  node: `rowVec e` and `colVec e` are the 690000 sources and destinations. The degree of a node is the number of edges
  that end at it (a scatter-add of ones); d = 1/sqrt(degree) where the degree is positive and 0 elsewhere; `normVec e`
  is d[source] · d[destination] per edge (an index below zero is first moved up by the number of nodes). The aggregation
  of an array lin : [50000, 128] gathers row source(j) of lin for every edge j, scales it by the edge's norm, and adds
  it into row destination(j) of a zero array.
-/
import proofs.«148464_j13365938225232_1_alg».proof.Proof.Gen.ReferenceIdeal
import Idealize.ShloMosaic.PureOps.Ideal

set_option maxRecDepth 8192

noncomputable section

namespace Cert.ReferenceIdeal.Agg

open Cert.ReferenceIdeal Cert.ReferenceIdeal.Gen Idealize.ShloMosaic

/-- The sources of the edges, the self-loops appended. -/
def rowVec (e : (⟨S2x640000, .i32⟩ : BufTy).Contents (Elt Ideal)) : (⟨S690000, .i32⟩ : BufTy).Contents (Elt Ideal) :=
  (concatenate S690000 0 [⟨S640000, (shapeCast _ (extractStridedSlice S1x640000 ![0, 0] e slices_S2x640000_S1x640000_0_0) shapeCasts_S1x640000_S640000)⟩, ⟨S50000, (iotaInDim S50000 32 0)⟩] concatenates_S640000_S50000_S690000_d0)

/-- The destinations of the edges, the self-loops appended. -/
def colVec (e : (⟨S2x640000, .i32⟩ : BufTy).Contents (Elt Ideal)) : (⟨S690000, .i32⟩ : BufTy).Contents (Elt Ideal) :=
  (concatenate S690000 0 [⟨S640000, (shapeCast _ (extractStridedSlice S1x640000 ![1, 0] e slices_S2x640000_S1x640000_1_0) shapeCasts_S1x640000_S640000)⟩, ⟨S50000, (iotaInDim S50000 32 0)⟩] concatenates_S640000_S50000_S690000_d0)

/-- The in-degree of every node: ones added at the edges' destinations. -/
def degVec (e : (⟨S2x640000, .i32⟩ : BufTy).Contents (Elt Ideal)) : FVec Ideal S50000 .f32 :=
  Host.scatterAdd scatter_S50000_S690000x1_S690000_n_0_0_1 (broadcastInDim S50000 ![] bcast_S_S50000 (constant S_ .f32 0x00000000#32)) (broadcastInDim S690000x1 ![0] bcast_S690000_S690000x1_0 (colVec e)) (broadcastInDim S690000 ![] bcast_S_S690000 (constant S_ .f32 0x3F800000#32))

/-- d = 1/sqrt(degree) where the degree is positive, 0 elsewhere. -/
def dinvVec (e : (⟨S2x640000, .i32⟩ : BufTy).Contents (Elt Ideal)) : FVec Ideal S50000 .f32 :=
  select (cmpf (F := Ideal) .ogt (degVec e) (broadcastInDim S50000 ![] bcast_S_S50000 (constant S_ .f32 0x00000000#32))) (Host.rsqrt (degVec e)) (broadcastInDim S50000 ![] bcast_S_S50000 (id (constant S_ .f32 0x00000000#32)))

/-- Per edge, d[source] · d[destination] (an index below zero first moved up by the number of nodes). -/
def normVec (e : (⟨S2x640000, .i32⟩ : BufTy).Contents (Elt Ideal)) : FVec Ideal S690000 .f32 :=
  mulf (Host.gather gather_S50000_S690000x1_S690000_n_0_n_n_0_1_1 (dinvVec e) (broadcastInDim S690000x1 ![0] bcast_S690000_S690000x1_0 (select (cmpi .slt (rowVec e) (broadcastInDim S690000 ![] bcast_S_S690000 (constantI S_ 32 0#32))) (addi (rowVec e) (broadcastInDim S690000 ![] bcast_S_S690000 (constantI S_ 32 50000#32))) (rowVec e)))) (Host.gather gather_S50000_S690000x1_S690000_n_0_n_n_0_1_1 (dinvVec e) (broadcastInDim S690000x1 ![0] bcast_S690000_S690000x1_0 (select (cmpi .slt (colVec e) (broadcastInDim S690000 ![] bcast_S_S690000 (constantI S_ 32 0#32))) (addi (colVec e) (broadcastInDim S690000 ![] bcast_S_S690000 (constantI S_ 32 50000#32))) (colVec e))))

/-- Rows of `lin` gathered by `rowV` (indices below zero moved up by 50000), scaled by `nrm` per edge, and added into
    the rows `colV` names of a zero array. -/
def aggOf (rowV colV : (⟨S690000, .i32⟩ : BufTy).Contents (Elt Ideal)) (nrm : FVec Ideal S690000 .f32)
    (lin : FVec Ideal S50000x128 .f32) : FVec Ideal S50000x128 .f32 :=
  Host.scatterAdd scatter_S50000x128_S690000x1_S690000x128_1_0_0_1 (broadcastInDim S50000x128 ![] bcast_S_S50000x128 (constant S_ .f32 0x00000000#32)) (broadcastInDim S690000x1 ![0] bcast_S690000_S690000x1_0 colV) (mulf (Host.gather gather_S50000x128_S690000x1_S690000x128_1_0_n_n_0_1_1128 lin (broadcastInDim S690000x1 ![0] bcast_S690000_S690000x1_0 (select (cmpi .slt rowV (broadcastInDim S690000 ![] bcast_S_S690000 (constantI S_ 32 0#32))) (addi rowV (broadcastInDim S690000 ![] bcast_S_S690000 (constantI S_ 32 50000#32))) rowV))) (broadcastInDim S690000x128 ![0, 1] bcast_S690000x1_S690000x128_0_1 (broadcastInDim S690000x1 ![0] bcast_S690000_S690000x1_0 nrm)))

/-- The aggregation over the edge list e. -/
def agg (e : (⟨S2x640000, .i32⟩ : BufTy).Contents (Elt Ideal)) (lin : FVec Ideal S50000x128 .f32) :
    FVec Ideal S50000x128 .f32 :=
  aggOf (rowVec e) (colVec e) (normVec e) lin

end Cert.ReferenceIdeal.Agg

end
-- ==== Proof.Ref.lean ====
/-
  The reference program's result is the network over its own aggregation.

  The reference computes each dense map by the host's `dot_general` (entry (p, q): Σ_k y[p, k] · w[k, q]), adds each bias
  after broadcasting it to a row and then down the rows (entry (p, q): b[q]), and floors at a zero constant broadcast to
  the whole array. Entry by entry these are `dense`, `biasFloor` and `biasAdd`; between them the reference applies its
  aggregation twice, to the same edge list — so its result term IS `net` over that aggregation.
-/
import proofs.«148464_j13365938225232_1_alg».proof.Proof.RefRunP
import proofs.«148464_j13365938225232_1_alg».proof.Proof.RAgg
import proofs.«148464_j13365938225232_1_alg».proof.Proof.Spec
import proofs.«148464_j13365938225232_1_alg».proof.Proof.LibRowOps
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Agg Cert.GraphNet
open Idealize.ShloMosaic Idealize.ShloMosaic.TcCoe Idealize.ShloMosaic.ValueIdx Idealize.SL.Sem

/-- The host's product of [50000, 128] with [128, 128] is `dense`. -/
theorem host_dense128 (y : FVec Ideal S50000x128 .f32) (w : FVec Ideal S128x128 .f32) :
    Host.dotGeneral (F := Ideal) dot_S50000x128_S128x128_S50000x128_1_0_0_1_n_n none y w = dense y w := by
  funext i
  obtain ⟨p, q, rfl⟩ : ∃ (p : Fin 50000) (q : Fin 128), i = ix2 p q := ⟨i 0, i 1, eq_ix2 i⟩
  rw [dense_apply]
  exact Cert.LibRowOps.dot_entry dot_S50000x128_S128x128_S50000x128_1_0_0_1_n_n rfl y w p q

/-- The host's product of [50000, 128] with [128, 64] is `dense`. -/
theorem host_dense64 (y : FVec Ideal S50000x128 .f32) (w : FVec Ideal S128x64 .f32) :
    Host.dotGeneral (F := Ideal) dot_S50000x128_S128x64_S50000x64_1_0_0_1_n_n none y w = dense y w := by
  funext i
  obtain ⟨p, q, rfl⟩ : ∃ (p : Fin 50000) (q : Fin 64), i = ix2 p q := ⟨i 0, i 1, eq_ix2 i⟩
  rw [dense_apply]
  exact Cert.LibRowOps.dot_entry dot_S50000x128_S128x64_S50000x64_1_0_0_1_n_n rfl y w p q

/-- The host's bias broadcast, sum and floor at a broadcast zero is `biasFloor`. -/
theorem host_biasFloor (a : FVec Ideal S50000x128 .f32) (b : FVec Ideal S128 .f32) :
    maximumf (F := Ideal) (addf a (broadcastInDim S50000x128 ![0, 1] bcast_S1x128_S50000x128_0_1 (broadcastInDim S1x128 ![1] bcast_S128_S1x128_1 b))) (broadcastInDim S50000x128 ![] bcast_S_S50000x128 (constant S_ .f32 0x00000000#32)) = biasFloor a b := by
  funext i
  obtain ⟨p, q, rfl⟩ : ∃ (p : Fin 50000) (q : Fin 128), i = ix2 p q := ⟨i 0, i 1, eq_ix2 i⟩
  have hX : (broadcastInDim S50000x128 ![0, 1] bcast_S1x128_S50000x128_0_1 (broadcastInDim S1x128 ![1] bcast_S128_S1x128_1 b)) (ix2 p q) = b (ix1 q) := Cert.LibRowOps.bias_rows_host b _ _ p q
  have hY : (broadcastInDim S50000x128 ![] bcast_S_S50000x128 (constant (F := Ideal) S_ .f32 0x00000000#32)) (ix2 p q)
      = Ideal.ofBits .f32 0x00000000#32 := (Cert.LibRowOps.scalar_bcast_host _ _ _).trans rfl
  rw [biasFloor_apply]
  show max (a (ix2 p q) + (broadcastInDim S50000x128 ![0, 1] bcast_S1x128_S50000x128_0_1 (broadcastInDim S1x128 ![1] bcast_S128_S1x128_1 b)) (ix2 p q))
      ((broadcastInDim S50000x128 ![] bcast_S_S50000x128 (constant (F := Ideal) S_ .f32 0x00000000#32)) (ix2 p q)) = _
  rw [hX, hY]

/-- The host's bias broadcast and sum is `biasAdd`. -/
theorem host_biasAdd (a : FVec Ideal S50000x64 .f32) (b : FVec Ideal S64 .f32) :
    addf (F := Ideal) a (broadcastInDim S50000x64 ![0, 1] bcast_S1x64_S50000x64_0_1 (broadcastInDim S1x64 ![1] bcast_S64_S1x64_1 b)) = biasAdd a b := by
  funext i
  obtain ⟨p, q, rfl⟩ : ∃ (p : Fin 50000) (q : Fin 64), i = ix2 p q := ⟨i 0, i 1, eq_ix2 i⟩
  have hX : (broadcastInDim S50000x64 ![0, 1] bcast_S1x64_S50000x64_0_1 (broadcastInDim S1x64 ![1] bcast_S64_S1x64_1 b)) (ix2 p q) = b (ix1 q) := Cert.LibRowOps.bias_rows_host b _ _ p q
  rw [biasAdd_apply]
  show a (ix2 p q) + (broadcastInDim S50000x64 ![0, 1] bcast_S1x64_S50000x64_0_1 (broadcastInDim S1x64 ![1] bcast_S64_S1x64_1 b)) (ix2 p q) = _
  rw [hX]

/-- The network as the reference's host operations spell it, over an aggregation map A. -/
def hostNet (A : FVec Ideal S50000x128 .f32 → FVec Ideal S50000x128 .f32)
    (x : FVec Ideal S50000x128 .f32) (w1 : FVec Ideal S128x128 .f32) (b1 : FVec Ideal S128 .f32)
    (w2 : FVec Ideal S128x128 .f32) (b2 : FVec Ideal S128 .f32) (wl : FVec Ideal S128x64 .f32) (bl : FVec Ideal S64 .f32) :
    FVec Ideal S50000x64 .f32 :=
  addf (Host.dotGeneral dot_S50000x128_S128x64_S50000x64_1_0_0_1_n_n none (maximumf (addf (A (Host.dotGeneral dot_S50000x128_S128x128_S50000x128_1_0_0_1_n_n none (maximumf (addf (A (Host.dotGeneral dot_S50000x128_S128x128_S50000x128_1_0_0_1_n_n none x w1)) (broadcastInDim S50000x128 ![0, 1] bcast_S1x128_S50000x128_0_1 (broadcastInDim S1x128 ![1] bcast_S128_S1x128_1 b1))) (broadcastInDim S50000x128 ![] bcast_S_S50000x128 (constant S_ .f32 0x00000000#32))) w2)) (broadcastInDim S50000x128 ![0, 1] bcast_S1x128_S50000x128_0_1 (broadcastInDim S1x128 ![1] bcast_S128_S1x128_1 b2))) (broadcastInDim S50000x128 ![] bcast_S_S50000x128 (constant S_ .f32 0x00000000#32))) wl) (broadcastInDim S50000x64 ![0, 1] bcast_S1x64_S50000x64_0_1 (broadcastInDim S1x64 ![1] bcast_S64_S1x64_1 bl))

/-- Spelt by host operations or entry by entry, the network is one function. -/
theorem hostNet_eq (A : FVec Ideal S50000x128 .f32 → FVec Ideal S50000x128 .f32)
    (x : FVec Ideal S50000x128 .f32) (w1 : FVec Ideal S128x128 .f32) (b1 : FVec Ideal S128 .f32)
    (w2 : FVec Ideal S128x128 .f32) (b2 : FVec Ideal S128 .f32) (wl : FVec Ideal S128x64 .f32) (bl : FVec Ideal S64 .f32) :
    hostNet A x w1 b1 w2 b2 wl bl = net A x w1 b1 w2 b2 wl bl := by
  unfold hostNet net
  rw [host_dense128 x w1, host_biasFloor (A (dense x w1)) b1, host_dense128 _ w2, host_biasFloor _ b2, host_dense64 _ wl,
    host_biasAdd _ bl]

/-- The reference run's result term is the host-spelt network over the reference's aggregation of its edge list. -/
theorem res_eq (m : (ℓ : Loc nD τ sig) → Buf (Elt Ideal) ℓ) (c : Dev nD) :
    Cert.ReferenceIdeal.ValueP.res_main_v92 (F := Ideal) m c
      = hostNet (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v92
  rfl

/-- The reference run's result is `net` over the reference's aggregation. -/
theorem result (m : (ℓ : Loc nD τ sig) → Buf (Elt Ideal) ℓ) (c : Dev nD) :
    Cert.ReferenceIdeal.ValueP.res_main_v92 (F := Ideal) m c
      = net (R := 50000) (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (res_eq m c).trans (hostNet_eq _ _ _ _ _ _ _ _)

end Cert.ReferenceIdeal.RefValue

end
-- ==== Proof.lean ====
/- The proof of `Cert.Claim` (proofs.«148464_j13365938225232_1_alg».proof.Defs).

   THE PROGRAMS. A two-layer graph convolution network and an affine output map over 50000 nodes, 640000 edges plus
   one self-loop per node, 128 features (64 out). With d = 1/sqrt(in-degree) (0 where the degree is 0), one layer is
       h ↦ max (A (h · W) + b) 0,      A y [v, :] = Σ over edges j that end at v of d[src j] · d[v] · y[src j, :],
   and the output is h ↦ h · Wl + bl. The reference computes every step by host operations. The kernel program
   computes the three products, the two bias-and-floor steps and the output bias in five kernel regions, 2000 rows of
   the 50000 per grid point (its products take their operands through a narrower float format, which is the identity
   over the extended reals), and leaves the edge bookkeeping, the gathers and the scatter-adds to host operations.

   WHY THE TWO AGREE over the extended reals. Each region's output array, once its 25 blocks are written back, is the
   whole-array function its body computes block by block: entry (p, q) of a product block is Σ_k y[2000·t + p, k] · w[k, q],
   the same sum the host's dot_general has at (2000·t + p, q); a bias arrives as a one-row matrix whose row is the bias
   vector. The aggregation A is spelt by the same host operations in both programs (the reference recomputes the norm
   per layer, the kernel program once: one term). So both results are `GraphNet.net` over one map A of the same
   arguments. No law of arithmetic joins the two sides — only re-indexing and 0 + s = s inside the library's reading
   of a product — so nothing can fail at an infinity and the finiteness of the inputs is never used.

   THE PARTS. Proof/Spec.lean (the network as one function), Proof/RowBias.lean (a bias as a one-row matrix),
   Proof/Region0 … Region4.lean (each region's output array), Proof/KAgg.lean and Proof/RAgg.lean (the aggregation as
   each program spells it), Proof/KRun.lean (the kernel program's run with its result named), Proof/Fold.lean (the
   result followed back through the program), Proof/RefRunP.lean (the reference's run) and Proof/Ref.lean (its result
   term as `net`); Proof/Lib*.lean are general lemmas on products, broadcasts and row reductions. Assembled here behind
   the witnesses of the programs' stated facts (the generated Proof/Gen/ instances). -/
import proofs.«148464_j13365938225232_1_alg».proof.Defs
import proofs.«148464_j13365938225232_1_alg».proof.Proof.Gen.Kernel
import proofs.«148464_j13365938225232_1_alg».proof.Proof.Gen.Kernel.Frame
import proofs.«148464_j13365938225232_1_alg».proof.Proof.Gen.KernelIdeal
import proofs.«148464_j13365938225232_1_alg».proof.Proof.Gen.KernelIdeal.Frame
import proofs.«148464_j13365938225232_1_alg».proof.Proof.Gen.ReferenceIdeal
import proofs.«148464_j13365938225232_1_alg».proof.Proof.Gen.Pre_finite_inputs
import proofs.«148464_j13365938225232_1_alg».proof.Proof.KRun
import proofs.«148464_j13365938225232_1_alg».proof.Proof.Fold
import proofs.«148464_j13365938225232_1_alg».proof.Proof.RefRunP
import proofs.«148464_j13365938225232_1_alg».proof.Proof.Ref
import Idealize.ShloMosaic.Adequacy
import Idealize.ShloMosaic.Init

set_option maxRecDepth 16384

noncomputable section

namespace Cert.Proof

open Idealize.ShloMosaic Idealize.SL.Sem

/-- The two programs spell the aggregation by the same host operations: one function of the edge list and the array. -/
theorem agg_eq (e : (⟨Cert.KernelIdeal.S2x640000, .i32⟩ : BufTy).Contents (Elt Ideal))
    (lin : FVec Ideal Cert.KernelIdeal.S50000x128 .f32) :
    Cert.ReferenceIdeal.Agg.agg e lin = Cert.KernelIdeal.Agg.agg e lin := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program: nothing to preserve. -/
theorem preserves : Cert.preserves_Kernel_KernelIdeal := trivial

/-- Both programs end with the network over one aggregation of the same arguments. -/
theorem algebraic : Cert.algebraic_KernelIdeal_ReferenceIdeal := by
  intro m ρ m' ρ' _ hagree
  refine ⟨fun c => Cert.GraphNet.net (R := 50000) (Cert.KernelIdeal.Agg.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨g0, g1, g2, g3, g4, g5, g6, g7⟩ := hagree c
    rw [Cert.ReferenceIdeal.RefValue.result m' c, g0, g1, g2, g3, g4, g5, g6, g7]
    exact congrArg (fun A => Cert.GraphNet.net (R := 50000) A (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (funext fun lin => agg_eq _ lin)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
